-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S32x2048x2 : Shape := ⟨3, ![32, 2048, 2]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S32x2048x2 : S_.BroadcastsInDim S32x2048x2 (![] : Fin 0 → Fin S32x2048x2.rank)
  reducesTo_S32x2048x2_S_d0_1_2 : S32x2048x2.ReducesTo [0, 1, 2] S_

variable [Facts]

def fn {F : FTy → Type} [FloatOps F] (main_arg0 : FVec F S32x256x64x64 .f32) (main_arg1 : FVec F S32x2048x2 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S32x2048x2 .f32 := Host.absf main_arg1
  let main_cst_0 : FVec F S_ .f32 := constant S_ .f32 0x7F800000#32
  let main_v5 : FVec F S32x2048x2 .f32 := broadcastInDim S32x2048x2 ![] bcast_S_S32x2048x2 main_cst_0
  let main_v6 : IVec S32x2048x2 1 := cmpf .olt main_v4 main_v5
  let main_c_1 : IVec S_ 1 := constantI S_ 1 1#1
  let main_v7 : IVec S_ 1 := (fun x v => Host.reduce IntOp.andi x v reducesTo_S32x2048x2_S_d0_1_2 h_S_) main_v6 main_c_1
  let main_v8 : IVec S_ 1 := andi main_v3 main_v7
  main_v8
-- ==== Kernel.lean ====
abbrev S32x256x64x64 : Shape := ⟨4, ![32, 256, 64, 64]⟩
abbrev S32x2048x2 : Shape := ⟨3, ![32, 2048, 2]⟩
abbrev S_ : Shape := ⟨0, ![]⟩
abbrev S32x2048x1 : Shape := ⟨3, ![32, 2048, 1]⟩
abbrev S32x2048 : Shape := ⟨2, ![32, 2048]⟩
abbrev S32x1x2048 : Shape := ⟨3, ![32, 1, 2048]⟩
abbrev S32x256x4096 : Shape := ⟨3, ![32, 256, 4096]⟩
abbrev S32x2048x256 : Shape := ⟨3, ![32, 2048, 256]⟩
abbrev S1x256x4096 : Shape := ⟨3, ![1, 256, 4096]⟩
abbrev S1x1x512 : Shape := ⟨3, ![1, 1, 512]⟩
abbrev S1x512x256 : Shape := ⟨3, ![1, 512, 256]⟩
abbrev S256x4096 : Shape := ⟨2, ![256, 4096]⟩
abbrev S64x512 : Shape := ⟨2, ![64, 512]⟩
abbrev S1x512 : Shape := ⟨2, ![1, 512]⟩
abbrev S64x1x512 : Shape := ⟨3, ![64, 1, 512]⟩
abbrev S1x64x512 : Shape := ⟨3, ![1, 64, 512]⟩
abbrev S64x64x512 : Shape := ⟨3, ![64, 64, 512]⟩
abbrev S4096x512 : Shape := ⟨2, ![4096, 512]⟩
abbrev S512x256 : Shape := ⟨2, ![512, 256]⟩

abbrev nBuf : Space → Nat
  | .hbm => 39
  | .vmem => 17
  | .smem => 0
  | _ => 0

abbrev bufTy : (tb : Table) → Fin (tcTables nBuf tb) → BufTy
  | .hbm, ⟨0, _⟩ => ⟨S32x256x64x64, .f32⟩
  | .hbm, ⟨1, _⟩ => ⟨S32x2048x2, .f32⟩
  | .hbm, ⟨2, _⟩ => ⟨S_, .f32⟩
  | .hbm, ⟨3, _⟩ => ⟨S32x2048x2, .f32⟩
  | .hbm, ⟨4, _⟩ => ⟨S32x2048x2, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S32x2048x2, .f32⟩
  | .hbm, ⟨9, _⟩ => ⟨S32x2048x2, .f32⟩
  | .hbm, ⟨10, _⟩ => ⟨S_, .f32⟩
  | .hbm, ⟨11, _⟩ => ⟨S32x2048x2, .f32⟩
  | .hbm, ⟨12, _⟩ => ⟨S32x2048x2, .f32⟩
  | .hbm, ⟨13, _⟩ => ⟨S32x2048x2, .f32⟩
  | .hbm, ⟨14, _⟩ => ⟨S32x2048x2, .i32⟩
  | .hbm, ⟨15, _⟩ => ⟨S32x2048x2, .f32⟩
  | .hbm, ⟨16, _⟩ => ⟨S32x2048x2, .i32⟩
  | .hbm, ⟨17, _⟩ => ⟨S32x2048x1, .i32⟩
  | .hbm, ⟨18, _⟩ => ⟨S32x2048, .i32⟩
  | .hbm, ⟨19, _⟩ => ⟨S32x2048x1, .i32⟩
  | .hbm, ⟨20, _⟩ => ⟨S32x2048, .i32⟩
  | .hbm, ⟨21, _⟩ => ⟨S32x2048x1, .i32⟩
  | .hbm, ⟨22, _⟩ => ⟨S32x2048, .i32⟩
  | .hbm, ⟨23, _⟩ => ⟨S32x2048x1, .i32⟩
  | .hbm, ⟨24, _⟩ => ⟨S32x2048, .i32⟩
  | .hbm, ⟨25, _⟩ => ⟨S32x2048x2, .f32⟩
  | .hbm, ⟨26, _⟩ => ⟨S32x2048x2, .f32⟩
  | .hbm, ⟨27, _⟩ => ⟨S32x2048x1, .f32⟩
  | .hbm, ⟨28, _⟩ => ⟨S32x2048, .f32⟩
  | .hbm, ⟨29, _⟩ => ⟨S32x2048x1, .f32⟩
  | .hbm, ⟨30, _⟩ => ⟨S32x2048, .f32⟩
  | .hbm, ⟨31, _⟩ => ⟨S32x1x2048, .i32⟩
  | .hbm, ⟨32, _⟩ => ⟨S32x1x2048, .i32⟩
  | .hbm, ⟨33, _⟩ => ⟨S32x1x2048, .i32⟩
  | .hbm, ⟨34, _⟩ => ⟨S32x1x2048, .i32⟩
  | .hbm, ⟨35, _⟩ => ⟨S32x1x2048, .f32⟩
  | .hbm, ⟨36, _⟩ => ⟨S32x1x2048, .f32⟩
  | .hbm, ⟨37, _⟩ => ⟨S32x256x4096, .f32⟩
  | .hbm, ⟨38, _⟩ => ⟨S32x2048x256, .f32⟩
  | .local _ .vmem, ⟨0, _⟩ => ⟨S1x256x4096, .f32⟩
  | .local _ .vmem, ⟨1, _⟩ => ⟨S1x256x4096, .f32⟩
  | .local _ .vmem, ⟨2, _⟩ => ⟨S1x1x512, .i32⟩
  | .local _ .vmem, ⟨3, _⟩ => ⟨S1x1x512, .i32⟩
  | .local _ .vmem, ⟨4, _⟩ => ⟨S1x1x512, .i32⟩
  | .local _ .vmem, ⟨5, _⟩ => ⟨S1x1x512, .i32⟩
  | .local _ .vmem, ⟨6, _⟩ => ⟨S1x1x512, .i32⟩
  | .local _ .vmem, ⟨7, _⟩ => ⟨S1x1x512, .i32⟩
  | .local _ .vmem, ⟨8, _⟩ => ⟨S1x1x512, .i32⟩
  | .local _ .vmem, ⟨9, _⟩ => ⟨S1x1x512, .i32⟩
  | .local _ .vmem, ⟨10, _⟩ => ⟨S1x1x512, .f32⟩
  | .local _ .vmem, ⟨11, _⟩ => ⟨S1x1x512, .f32⟩
  | .local _ .vmem, ⟨12, _⟩ => ⟨S1x1x512, .f32⟩
  | .local _ .vmem, ⟨13, _⟩ => ⟨S1x1x512, .f32⟩
  | .local _ .vmem, ⟨14, _⟩ => ⟨S1x512x256, .f32⟩
  | .local _ .vmem, ⟨15, _⟩ => ⟨S1x512x256, .f32⟩
  | .local _ .vmem, ⟨16, _⟩ => ⟨S256x4096, .bf16⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bcast_S_S32x2048x2 : S_.BroadcastsInDim S32x2048x2 (![] : Fin 0 → Fin S32x2048x2.rank)
  slices_S32x2048x2_S32x2048x1_0_0_0 : S32x2048x2.Slices ![0, 0, 0] S32x2048x1
  shapeCasts_S32x2048x1_S32x2048 : S32x2048x1.ShapeCasts S32x2048
  slices_S32x2048x2_S32x2048x1_0_0_1 : S32x2048x2.Slices ![0, 0, 1] S32x2048x1
  bcast_S32x2048_S32x1x2048_0_2 : S32x2048.BroadcastsInDim S32x1x2048 (![0, 2] : Fin 2 → Fin S32x1x2048.rank)
  shapeCasts_S32x256x64x64_S32x256x4096 : S32x256x64x64.ShapeCasts S32x256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  bitsLt_bf16_f32 : FTy.bits .bf16 < FTy.bits .f32
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  packedbf16_S256x4096_S256x4096_0_0 : (Rect.unit (s := S256x4096) ![0, 0] S256x4096.size inb_S256x4096_S256x4096_0_0).PackedRows (EltTy.packing .bf16)
  iota_S64x512_d0_w32 : S64x512.Iotas .tc 32 [0]
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S64x512 : S1x512.Broadcasts S64x512
  shapeCasts_S1x512_S1x512 : S1x512.ShapeCasts S1x512
  shapeCasts_S64x512_S64x1x512 : S64x512.ShapeCasts S64x1x512
  shapeCasts_S64x512_S1x64x512 : S64x512.ShapeCasts S1x64x512
  broadcasts_S64x1x512_S64x64x512 : S64x1x512.Broadcasts S64x64x512
  broadcasts_S1x64x512_S64x64x512 : S1x64x512.Broadcasts S64x64x512
  shapeCasts_S64x64x512_S4096x512 : S64x64x512.ShapeCasts S4096x512
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  dot_S4096x512_S256x4096_S512x256_0_1_1_0_n_n_wf : DotDims.WF S4096x512 S256x4096 S512x256 [0] [1] [1] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S32x1x2048.size a
  hwx0_1 : ∀ i : grid0.Coords, EltTy.bits .i32 = 32 ∨ (Rect.block (s := S32x1x2048) S1x1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S32x1x2048.size a
  hwx0_2 : ∀ i : grid0.Coords, EltTy.bits .i32 = 32 ∨ (Rect.block (s := S32x1x2048) S1x1x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S32x1x2048.size a
  hwx0_3 : ∀ i : grid0.Coords, EltTy.bits .i32 = 32 ∨ (Rect.block (s := S32x1x2048) S1x1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S32x1x2048.size a
  hwx0_4 : ∀ i : grid0.Coords, EltTy.bits .i32 = 32 ∨ (Rect.block (s := S32x1x2048) S1x1x512.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S32x1x2048.size a
  hwx0_5 : ∀ i : grid0.Coords, EltTy.bits .f32 = 32 ∨ (Rect.block (s := S32x1x2048) S1x1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512.size a ≤ S32x1x2048.size a
  hwx0_6 : ∀ i : grid0.Coords, EltTy.bits .f32 = 32 ∨ (Rect.block (s := S32x1x2048) S1x1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512x256.size a ≤ S32x2048x256.size a
  hwx0_7 : ∀ i : grid0.Coords, EltTy.bits .f32 = 32 ∨ (Rect.block (s := S32x2048x256) S1x512x256.size (cc0_transform_7 i) (hinb0_7 i)).WholeWords (EltTy.packing .f32)

variable [Facts₀]

def dot_S4096x512_S256x4096_S512x256_0_1_1_0_n_n : DotDims S4096x512 S256x4096 S512x256 where
  lhsContracting := [0]
  rhsContracting := [1]
  lhsNonContracting := [1]
  rhsNonContracting := [0]
  lhsBatch := []
  rhsBatch := []
  wf := dot_S4096x512_S256x4096_S512x256_0_1_1_0_n_n_wf

abbrev win0_0 : Pipeline.Window sig grid0 :=
  Pipeline.Window.ofSpec (Memref.whole main_v27) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v22) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v25) S1x1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v26) S1x1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v28) S1x512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S32x2048x2 : Shape := ⟨3, ![32, 2048, 2]⟩
abbrev S_ : Shape := ⟨0, ![]⟩
abbrev S32x2048x1 : Shape := ⟨3, ![32, 2048, 1]⟩
abbrev S32x2048 : Shape := ⟨2, ![32, 2048]⟩
abbrev S32x256x4096 : Shape := ⟨3, ![32, 256, 4096]⟩
abbrev S32x1x2048 : Shape := ⟨3, ![32, 1, 2048]⟩
abbrev S1 : Shape := ⟨1, ![1]⟩
abbrev S1x1x1 : Shape := ⟨3, ![1, 1, 1]⟩
abbrev S32x256x2048 : Shape := ⟨3, ![32, 256, 2048]⟩
abbrev S32x2048x256 : Shape := ⟨3, ![32, 2048, 256]⟩

abbrev nBuf : Space → Nat
  | .hbm => 159
  | .vmem => 0
  | .smem => 0
  | _ => 0

abbrev hbmTy0_0 (i : Nat) : BufTy := match i % 128 with
  | 0 => ⟨S32x256x64x64, .f32⟩
  | 1 => ⟨S32x2048x2, .f32⟩
  | 2 => ⟨S_, .f32⟩
  | 3 => ⟨S32x2048x2, .f32⟩
  | 4 => ⟨S32x2048x2, .f32⟩
  | 5 => ⟨S_, .i32⟩
  | 6 => ⟨S_, .i32⟩
  | 7 => ⟨S_, .f32⟩
  | 8 => ⟨S32x2048x2, .f32⟩
  | 9 => ⟨S32x2048x2, .f32⟩
  | 10 => ⟨S_, .f32⟩
  | 11 => ⟨S32x2048x2, .f32⟩
  | 12 => ⟨S32x2048x2, .f32⟩
  | 13 => ⟨S32x2048x2, .f32⟩
  | 14 => ⟨S32x2048x2, .i32⟩
  | 15 => ⟨S32x2048x2, .f32⟩
  | 16 => ⟨S32x2048x2, .i32⟩
  | 17 => ⟨S32x2048x1, .i32⟩
  | 18 => ⟨S32x2048, .i32⟩
  | 19 => ⟨S32x2048x1, .i32⟩
  | 20 => ⟨S32x2048, .i32⟩
  | 21 => ⟨S32x2048x1, .i32⟩
  | 22 => ⟨S32x2048, .i32⟩
  | 23 => ⟨S32x2048x1, .i32⟩
  | 24 => ⟨S32x2048, .i32⟩
  | 25 => ⟨S32x256x4096, .f32⟩
  | 26 => ⟨S_, .i32⟩
  | 27 => ⟨S32x2048, .i32⟩
  | 28 => ⟨S32x2048, .i32⟩
  | 29 => ⟨S32x2048, .i32⟩
  | 30 => ⟨S32x1x2048, .i32⟩
  | 31 => ⟨S_, .i32⟩
  | 32 => ⟨S32x1x2048, .i32⟩
  | 33 => ⟨S32x1x2048, .i1⟩
  | 34 => ⟨S_, .i32⟩
  | 35 => ⟨S32x1x2048, .i32⟩
  | 36 => ⟨S32x1x2048, .i32⟩
  | 37 => ⟨S32x1x2048, .i32⟩
  | 38 => ⟨S32x2048x1, .i32⟩
  | 39 => ⟨S1, .i32⟩
  | 40 => ⟨S_, .i32⟩
  | 41 => ⟨S32x2048x1, .i32⟩
  | 42 => ⟨S32x2048x1, .i1⟩
  | 43 => ⟨S1x1x1, .i32⟩
  | 44 => ⟨S32x2048x1, .i32⟩
  | 45 => ⟨S32x2048x1, .i1⟩
  | 46 => ⟨S32x2048x1, .i1⟩
  | 47 => ⟨S_, .i1⟩
  | 48 => ⟨S32x2048, .i1⟩
  | 49 => ⟨S32x256x2048, .f32⟩
  | 50 => ⟨S32x256x2048, .i1⟩
  | 51 => ⟨S_, .f32⟩
  | 52 => ⟨S32x256x2048, .f32⟩
  | 53 => ⟨S32x256x2048, .f32⟩
  | 54 => ⟨S32x2048x256, .f32⟩
  | 55 => ⟨S_, .i32⟩
  | 56 => ⟨S32x2048, .i32⟩
  | 57 => ⟨S32x2048, .i32⟩
  | 58 => ⟨S32x2048, .i32⟩
  | 59 => ⟨S32x1x2048, .i32⟩
  | 60 => ⟨S_, .i32⟩
  | 61 => ⟨S32x1x2048, .i32⟩
  | 62 => ⟨S32x1x2048, .i1⟩
  | 63 => ⟨S_, .i32⟩
  | 64 => ⟨S32x1x2048, .i32⟩
  | 65 => ⟨S32x1x2048, .i32⟩
  | 66 => ⟨S32x1x2048, .i32⟩
  | 67 => ⟨S32x2048x1, .i32⟩
  | 68 => ⟨S1, .i32⟩
  | 69 => ⟨S_, .i32⟩
  | 70 => ⟨S32x2048x1, .i32⟩
  | 71 => ⟨S32x2048x1, .i1⟩
  | 72 => ⟨S1x1x1, .i32⟩
  | 73 => ⟨S32x2048x1, .i32⟩
  | 74 => ⟨S32x2048x1, .i1⟩
  | 75 => ⟨S32x2048x1, .i1⟩
  | 76 => ⟨S_, .i1⟩
  | 77 => ⟨S32x2048, .i1⟩
  | 78 => ⟨S32x256x2048, .f32⟩
  | 79 => ⟨S32x256x2048, .i1⟩
  | 80 => ⟨S_, .f32⟩
  | 81 => ⟨S32x256x2048, .f32⟩
  | 82 => ⟨S32x256x2048, .f32⟩
  | 83 => ⟨S32x2048x256, .f32⟩
  | 84 => ⟨S_, .i32⟩
  | 85 => ⟨S32x2048, .i32⟩
  | 86 => ⟨S32x2048, .i32⟩
  | 87 => ⟨S32x2048, .i32⟩
  | 88 => ⟨S32x1x2048, .i32⟩
  | 89 => ⟨S_, .i32⟩
  | 90 => ⟨S32x1x2048, .i32⟩
  | 91 => ⟨S32x1x2048, .i1⟩
  | 92 => ⟨S_, .i32⟩
  | 93 => ⟨S32x1x2048, .i32⟩
  | 94 => ⟨S32x1x2048, .i32⟩
  | 95 => ⟨S32x1x2048, .i32⟩
  | 96 => ⟨S32x2048x1, .i32⟩
  | 97 => ⟨S1, .i32⟩
  | 98 => ⟨S_, .i32⟩
  | 99 => ⟨S32x2048x1, .i32⟩
  | 100 => ⟨S32x2048x1, .i1⟩
  | 101 => ⟨S1x1x1, .i32⟩
  | 102 => ⟨S32x2048x1, .i32⟩
  | 103 => ⟨S32x2048x1, .i1⟩
  | 104 => ⟨S32x2048x1, .i1⟩
  | 105 => ⟨S_, .i1⟩
  | 106 => ⟨S32x2048, .i1⟩
  | 107 => ⟨S32x256x2048, .f32⟩
  | 108 => ⟨S32x256x2048, .i1⟩
  | 109 => ⟨S_, .f32⟩
  | 110 => ⟨S32x256x2048, .f32⟩
  | 111 => ⟨S32x256x2048, .f32⟩
  | 112 => ⟨S32x2048x256, .f32⟩
  | 113 => ⟨S_, .i32⟩
  | 114 => ⟨S32x2048, .i32⟩
  | 115 => ⟨S32x2048, .i32⟩
  | 116 => ⟨S32x2048, .i32⟩
  | 117 => ⟨S32x1x2048, .i32⟩
  | 118 => ⟨S_, .i32⟩
  | 119 => ⟨S32x1x2048, .i32⟩
  | 120 => ⟨S32x1x2048, .i1⟩
  | 121 => ⟨S_, .i32⟩
  | 122 => ⟨S32x1x2048, .i32⟩
  | 123 => ⟨S32x1x2048, .i32⟩
  | 124 => ⟨S32x1x2048, .i32⟩
  | 125 => ⟨S32x2048x1, .i32⟩
  | 126 => ⟨S1, .i32⟩
  | 127 => ⟨S_, .i32⟩
  | _ => ⟨S32x256x64x64, .f32⟩

abbrev hbmTy0_1 (i : Nat) : BufTy := match i % 128 with
  | 0 => ⟨S32x2048x1, .i32⟩
  | 1 => ⟨S32x2048x1, .i1⟩
  | 2 => ⟨S1x1x1, .i32⟩
  | 3 => ⟨S32x2048x1, .i32⟩
  | 4 => ⟨S32x2048x1, .i1⟩
  | 5 => ⟨S32x2048x1, .i1⟩
  | 6 => ⟨S_, .i1⟩
  | 7 => ⟨S32x2048, .i1⟩
  | 8 => ⟨S32x256x2048, .f32⟩
  | 9 => ⟨S32x256x2048, .i1⟩
  | 10 => ⟨S_, .f32⟩
  | 11 => ⟨S32x256x2048, .f32⟩
  | 12 => ⟨S32x256x2048, .f32⟩
  | 13 => ⟨S32x2048x256, .f32⟩
  | 14 => ⟨S32x2048x2, .f32⟩
  | 15 => ⟨S32x2048x2, .f32⟩
  | 16 => ⟨S32x2048x256, .f32⟩
  | 17 => ⟨S32x2048x1, .f32⟩
  | 18 => ⟨S32x2048x256, .f32⟩
  | 19 => ⟨S32x2048x256, .f32⟩
  | 20 => ⟨S32x2048x256, .f32⟩
  | 21 => ⟨S32x2048x256, .f32⟩
  | 22 => ⟨S32x2048x1, .f32⟩
  | 23 => ⟨S32x2048x256, .f32⟩
  | 24 => ⟨S32x2048x256, .f32⟩
  | 25 => ⟨S32x2048x256, .f32⟩
  | 26 => ⟨S32x2048x256, .f32⟩
  | 27 => ⟨S32x2048x1, .f32⟩
  | 28 => ⟨S32x2048x256, .f32⟩
  | 29 => ⟨S32x2048x256, .f32⟩
  | 30 => ⟨S32x2048x256, .f32⟩
  | _ => ⟨S32x256x64x64, .f32⟩

abbrev hbmTy (i : Nat) : BufTy := match i / 128 with
  | 0 => hbmTy0_0 i
  | 1 => hbmTy0_1 i
  | _ => ⟨S32x256x64x64, .f32⟩

abbrev bufTy : (tb : Table) → Fin (tcTables nBuf tb) → BufTy
  | .hbm, ⟨i, _⟩ => hbmTy i
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v20 : Ref sig .tc := ⟨.hbm, 53, rfl⟩
abbrev main_v21 : Ref sig .tc := ⟨.hbm, 54, rfl⟩
abbrev main_c_2 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_call2_c : Ref sig .tc := ⟨.hbm, 60, rfl⟩
abbrev main_call2_v0 : Ref sig .tc := ⟨.hbm, 61, rfl⟩
abbrev main_call2_v1 : Ref sig .tc := ⟨.hbm, 62, rfl⟩
abbrev main_call2_c_0 : Ref sig .tc := ⟨.hbm, 63, rfl⟩
abbrev main_call2_v2 : Ref sig .tc := ⟨.hbm, 64, rfl⟩
abbrev main_call2_v3 : Ref sig .tc := ⟨.hbm, 65, rfl⟩
abbrev main_call2_v4 : Ref sig .tc := ⟨.hbm, 66, rfl⟩
abbrev main_call2_v5 : Ref sig .tc := ⟨.hbm, 67, rfl⟩
abbrev main_call2_c_1 : Ref sig .tc := ⟨.hbm, 68, rfl⟩
abbrev main_call2_c_2 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_c_3 : Ref sig .tc := ⟨.hbm, 76, rfl⟩
abbrev main_call2_v12 : Ref sig .tc := ⟨.hbm, 77, rfl⟩
abbrev main_call2_v13 : Ref sig .tc := ⟨.hbm, 78, rfl⟩
abbrev main_call2_v14 : Ref sig .tc := ⟨.hbm, 79, rfl⟩
abbrev main_call2_cst : Ref sig .tc := ⟨.hbm, 80, rfl⟩
abbrev main_call2_v15 : Ref sig .tc := ⟨.hbm, 81, rfl⟩
abbrev main_v26 : Ref sig .tc := ⟨.hbm, 82, rfl⟩
abbrev main_v27 : Ref sig .tc := ⟨.hbm, 83, rfl⟩
abbrev main_c_3 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_v14 : Ref sig .tc := ⟨.hbm, 108, rfl⟩
abbrev main_call3_cst : Ref sig .tc := ⟨.hbm, 109, rfl⟩
abbrev main_call3_v15 : Ref sig .tc := ⟨.hbm, 110, rfl⟩
abbrev main_v32 : Ref sig .tc := ⟨.hbm, 111, rfl⟩
abbrev main_v33 : Ref sig .tc := ⟨.hbm, 112, rfl⟩
abbrev main_c_4 : Ref sig .tc := ⟨.hbm, 113, rfl⟩
abbrev main_v34 : Ref sig .tc := ⟨.hbm, 114, rfl⟩
abbrev main_v35 : Ref sig .tc := ⟨.hbm, 115, rfl⟩
abbrev main_v36 : Ref sig .tc := ⟨.hbm, 116, rfl⟩
abbrev main_v37 : Ref sig .tc := ⟨.hbm, 117, rfl⟩
abbrev main_call4_c : Ref sig .tc := ⟨.hbm, 118, rfl⟩
abbrev main_call4_v0 : Ref sig .tc := ⟨.hbm, 119, rfl⟩
abbrev main_call4_v1 : Ref sig .tc := ⟨.hbm, 120, rfl⟩
abbrev main_call4_c_0 : Ref sig .tc := ⟨.hbm, 121, rfl⟩
abbrev main_call4_v2 : Ref sig .tc := ⟨.hbm, 122, rfl⟩
abbrev main_call4_v3 : Ref sig .tc := ⟨.hbm, 123, rfl⟩
abbrev main_call4_v4 : Ref sig .tc := ⟨.hbm, 124, rfl⟩
abbrev main_call4_v5 : Ref sig .tc := ⟨.hbm, 125, rfl⟩
abbrev main_call4_c_1 : Ref sig .tc := ⟨.hbm, 126, rfl⟩
abbrev main_call4_c_2 : Ref sig .tc := ⟨.hbm, 127, rfl⟩
abbrev main_call4_v6 : Ref sig .tc := ⟨.hbm, 128, rfl⟩
abbrev main_call4_v7 : Ref sig .tc := ⟨.hbm, 129, rfl⟩
abbrev main_call4_v8 : Ref sig .tc := ⟨.hbm, 130, rfl⟩
abbrev main_call4_v9 : Ref sig .tc := ⟨.hbm, 131, rfl⟩
abbrev main_call4_v10 : Ref sig .tc := ⟨.hbm, 132, rfl⟩
abbrev main_call4_v11 : Ref sig .tc := ⟨.hbm, 133, rfl⟩
abbrev main_call4_c_3 : Ref sig .tc := ⟨.hbm, 134, rfl⟩
abbrev main_call4_v12 : Ref sig .tc := ⟨.hbm, 135, rfl⟩
abbrev main_call4_v13 : Ref sig .tc := ⟨.hbm, 136, rfl⟩
abbrev main_call4_v14 : Ref sig .tc := ⟨.hbm, 137, rfl⟩
abbrev main_call4_cst : Ref sig .tc := ⟨.hbm, 138, rfl⟩
abbrev main_call4_v15 : Ref sig .tc := ⟨.hbm, 139, rfl⟩
abbrev main_v38 : Ref sig .tc := ⟨.hbm, 140, rfl⟩
abbrev main_v39 : Ref sig .tc := ⟨.hbm, 141, rfl⟩
abbrev main_v40 : Ref sig .tc := ⟨.hbm, 142, rfl⟩
abbrev main_v41 : Ref sig .tc := ⟨.hbm, 143, rfl⟩
abbrev main_v42 : Ref sig .tc := ⟨.hbm, 144, rfl⟩
abbrev main_v43 : Ref sig .tc := ⟨.hbm, 145, rfl⟩
abbrev main_v44 : Ref sig .tc := ⟨.hbm, 146, rfl⟩
abbrev main_v45 : Ref sig .tc := ⟨.hbm, 147, rfl⟩
abbrev main_v46 : Ref sig .tc := ⟨.hbm, 148, rfl⟩
abbrev main_v47 : Ref sig .tc := ⟨.hbm, 149, rfl⟩
abbrev main_v48 : Ref sig .tc := ⟨.hbm, 150, rfl⟩
abbrev main_v49 : Ref sig .tc := ⟨.hbm, 151, rfl⟩
abbrev main_v50 : Ref sig .tc := ⟨.hbm, 152, rfl⟩
abbrev main_v51 : Ref sig .tc := ⟨.hbm, 153, rfl⟩
abbrev main_v52 : Ref sig .tc := ⟨.hbm, 154, rfl⟩
abbrev main_v53 : Ref sig .tc := ⟨.hbm, 155, rfl⟩
abbrev main_v54 : Ref sig .tc := ⟨.hbm, 156, rfl⟩
abbrev main_v55 : Ref sig .tc := ⟨.hbm, 157, rfl⟩
abbrev main_v56 : Ref sig .tc := ⟨.hbm, 158, rfl⟩

abbrev nD : Nat := 1
abbrev τ : Topo := Topo.v7x

variable {F : FTy → Type} [FloatOps F]

class Facts₀ : Prop where
  bcast_S_S32x2048x2 : S_.BroadcastsInDim S32x2048x2 (![] : Fin 0 → Fin S32x2048x2.rank)
  slices_S32x2048x2_S32x2048x1_0_0_0 : S32x2048x2.Slices ![0, 0, 0] S32x2048x1
  shapeCasts_S32x2048x1_S32x2048 : S32x2048x1.ShapeCasts S32x2048
  slices_S32x2048x2_S32x2048x1_0_0_1 : S32x2048x2.Slices ![0, 0, 1] S32x2048x1
  shapeCasts_S32x256x64x64_S32x256x4096 : S32x256x64x64.ShapeCasts S32x256x4096
  bcast_S_S32x2048 : S_.BroadcastsInDim S32x2048 (![] : Fin 0 → Fin S32x2048.rank)
  bcast_S32x2048_S32x1x2048_0_2 : S32x2048.BroadcastsInDim S32x1x2048 (![0, 2] : Fin 2 → Fin S32x1x2048.rank)
  bcast_S_S32x1x2048 : S_.BroadcastsInDim S32x1x2048 (![] : Fin 0 → Fin S32x1x2048.rank)
  shapeCasts_S32x1x2048_S32x2048x1 : S32x1x2048.ShapeCasts S32x2048x1
  bcast_S_S32x2048x1 : S_.BroadcastsInDim S32x2048x1 (![] : Fin 0 → Fin S32x2048x1.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  reducesTo_S32x2048x1_S32x2048_d2 : S32x2048x1.ReducesTo [2] S32x2048
  h_S_ : 0 < S_.numel
  bcast_S32x2048_S32x256x2048_0_2 : S32x2048.BroadcastsInDim S32x256x2048 (![0, 2] : Fin 2 → Fin S32x256x2048.rank)
  bcast_S_S32x256x2048 : S_.BroadcastsInDim S32x256x2048 (![] : Fin 0 → Fin S32x256x2048.rank)
  transposes_S32x256x2048_S32x2048x256_0_2_1 : S32x256x2048.Transposes [0, 2, 1] S32x2048x256
  bcast_S32x2048x1_S32x2048x256_0_1_2 : S32x2048x1.BroadcastsInDim S32x2048x256 (![0, 1, 2] : Fin 3 → Fin S32x2048x256.rank)
  gather_S32x256x4096_S32x2048x1_S32x256x2048_1_2_0_0_2_2_12561_wf : GatherDims.WF S32x256x4096 S32x2048x1 S32x256x2048 [1] [2] [0] [2] [0] 2 ![1, 256, 1]

variable [Facts₀]

def gather_S32x256x4096_S32x2048x1_S32x256x2048_1_2_0_0_2_2_12561 : GatherDims S32x256x4096 S32x2048x1 S32x256x2048 where
  offsetDims := [1]
  collapsedSliceDims := [2]
  operandBatchingDims := [0]
  startIndicesBatchingDims := [0]
  startIndexMap := [2]
  indexVectorDim := 2
  sliceSizes := ![1, 256, 1]
  wf := gather_S32x256x4096_S32x2048x1_S32x256x2048_1_2_0_0_2_2_12561_wf

class Facts : Prop extends Facts₀ where

variable [Facts]
-- ==== Proof.KernelPieces.lean ====
/-
  What one grid point's body leaves behind, as values.

  The body keeps a copy of the batch's feature block (cast to the matrix unit's operand format) in a buffer it
  carries from one query block to the next: the first query block of a batch stores the copy, the three that follow
  find it as the block before left it. In both cases the output block is ONE function `sampled` of the six
  per-query blocks (the four grid-line words and the two offsets) and of the copy the product reads.
-/
import proofs.«139457_j5995774345370_2_alg».proof.Proof.Gen.KernelIdeal.Value
import Idealize.ShloMosaic.Lib.Pipeline.Value
import Idealize.ShloMosaic.Lib.Tactic

noncomputable section

open Idealize.ShloMosaic Idealize.ShloMosaic.TcCoe Idealize.SL.Sem Idealize.ShloMosaic.Tactic
open Idealize.ShloMosaic.Pipeline (Dat)

namespace Cert.KernelIdeal.Sampled

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The output block of a point from its per-query blocks and the feature copy `s` the product reads:
    window 1 … 4 hold the words of the lower / upper row line and the lower / upper column line,
    window 5 and 6 the row and the column offset. -/
def sampled (x1 x2 x3 x4 : Vec F S1x1x512 .i32) (x5 x6 : Vec F S1x1x512 .f32) (s : Vec F S256x4096 .bf16) :
    Vec F S1x512x256 .f32 :=
  k0_pay1 (iota .tc S64x512 32 [0] iota_S64x512_d0_w32) (k0_pay3 x6) (k0_pay4 x4) (k0_pay5 x5 x1 x2) (k0_pay6 x3) s

/-- At a batch's first query block the carried buffer ends holding the copy of the feature block. -/
theorem scratch_A (c : Dev nD) (i : grid0.Coords) (arg2 : Memref sig .tc .vmem S1x256x4096 .f32) (harg2 : arg2.IsWhole) (arg3 : Memref sig .tc .vmem S1x1x512 .i32) (harg3 : arg3.IsWhole) (arg4 : Memref sig .tc .vmem S1x1x512 .i32) (harg4 : arg4.IsWhole) (arg5 : Memref sig .tc .vmem S1x1x512 .i32) (harg5 : arg5.IsWhole) (arg6 : Memref sig .tc .vmem S1x1x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512x256 .f32) (harg9 : arg9.IsWhole) (arg10 : Memref sig .tc .vmem S256x4096 .bf16) (harg10 : arg10.IsWhole) (hc0 : cond0_0 i) (x0 : Vec F S1x256x4096 .f32) (x1 : Vec F S1x1x512 .i32) (x2 : Vec F S1x1x512 .i32) (x3 : Vec F S1x1x512 .i32) (x4 : Vec F S1x1x512 .i32) (x5 : Vec F S1x1x512 .f32) (x6 : Vec F S1x1x512 .f32) :
    sout0_A_0 c i arg2 harg2 arg3 harg3 arg4 harg4 arg5 harg5 arg6 harg6 arg7 harg7 arg8 harg8 arg9 harg9 arg10 harg10 hc0 x0 x1 x2 x3 x4 x5 x6 = k0_pay2 x0 := by
  unfold sout0_A_0
  rw [View.read_writes_eq_canon _ _ _ (scover0_A_0 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero hz2]
  simp only [View.readAt_eq_ld, harg2.read_unread, View.ld_unit_zero (S := S1x256x4096) hz3]

/-- At a batch's first query block the product reads the copy just stored. -/
theorem out_A (c : Dev nD) (i : grid0.Coords) (arg2 : Memref sig .tc .vmem S1x256x4096 .f32) (harg2 : arg2.IsWhole) (arg3 : Memref sig .tc .vmem S1x1x512 .i32) (harg3 : arg3.IsWhole) (arg4 : Memref sig .tc .vmem S1x1x512 .i32) (harg4 : arg4.IsWhole) (arg5 : Memref sig .tc .vmem S1x1x512 .i32) (harg5 : arg5.IsWhole) (arg6 : Memref sig .tc .vmem S1x1x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512x256 .f32) (harg9 : arg9.IsWhole) (arg10 : Memref sig .tc .vmem S256x4096 .bf16) (harg10 : arg10.IsWhole) (hc0 : cond0_0 i) (x0 : Vec F S1x256x4096 .f32) (x1 : Vec F S1x1x512 .i32) (x2 : Vec F S1x1x512 .i32) (x3 : Vec F S1x1x512 .i32) (x4 : Vec F S1x1x512 .i32) (x5 : Vec F S1x1x512 .f32) (x6 : Vec F S1x1x512 .f32) :
    out0_A_7 c i arg2 harg2 arg3 harg3 arg4 harg4 arg5 harg5 arg6 harg6 arg7 harg7 arg8 harg8 arg9 harg9 arg10 harg10 hc0 x0 x1 x2 x3 x4 x5 x6 = sampled x1 x2 x3 x4 x5 x6 (k0_pay2 x0) := by
  unfold out0_A_7
  rw [View.read_writes_eq_canon _ _ _ (cover0_A_7 c i arg2 harg2 arg3 harg3 arg4 harg4 arg5 harg5 arg6 harg6 arg7 harg7 arg8 harg8 arg9 harg9 arg10 harg10 hc0 x0 x1 x2 x3 x4 x5 x6)]
  unfold kernelRun0_A
  dsimp only
  sl_unfold_words
  rw [View.canon_unit_zero hz3, View.readCov_unit_zero (S := S256x4096) _ hz2]
  unfold sampled
  simp only [View.readAt_eq_ld, harg2.read_unread, harg3.read_unread, harg4.read_unread, harg5.read_unread, harg6.read_unread, harg7.read_unread, harg8.read_unread, View.ld_unit_zero (S := S1x1x512) hz3, View.ld_unit_zero (S := S1x256x4096) hz3]

/-- At a later query block the product reads the copy the block before left. -/
theorem out_B (c : Dev nD) (i : grid0.Coords) (arg2 : Memref sig .tc .vmem S1x256x4096 .f32) (harg2 : arg2.IsWhole) (arg3 : Memref sig .tc .vmem S1x1x512 .i32) (harg3 : arg3.IsWhole) (arg4 : Memref sig .tc .vmem S1x1x512 .i32) (harg4 : arg4.IsWhole) (arg5 : Memref sig .tc .vmem S1x1x512 .i32) (harg5 : arg5.IsWhole) (arg6 : Memref sig .tc .vmem S1x1x512 .i32) (harg6 : arg6.IsWhole) (arg7 : Memref sig .tc .vmem S1x1x512 .f32) (harg7 : arg7.IsWhole) (arg8 : Memref sig .tc .vmem S1x1x512 .f32) (harg8 : arg8.IsWhole) (arg9 : Memref sig .tc .vmem S1x512x256 .f32) (harg9 : arg9.IsWhole) (arg10 : Memref sig .tc .vmem S256x4096 .bf16) (harg10 : arg10.IsWhole) (hc0 : ¬cond0_0 i) (x0 : Vec F S1x256x4096 .f32) (x1 : Vec F S1x1x512 .i32) (x2 : Vec F S1x1x512 .i32) (x3 : Vec F S1x1x512 .i32) (x4 : Vec F S1x1x512 .i32) (x5 : Vec F S1x1x512 .f32) (x6 : Vec F S1x1x512 .f32) (xs0 : Vec F S256x4096 .bf16) :
    out0_B_7 c i arg2 harg2 arg3 harg3 arg4 harg4 arg5 harg5 arg6 harg6 arg7 harg7 arg8 harg8 arg9 harg9 arg10 harg10 hc0 x0 x1 x2 x3 x4 x5 x6 xs0 = sampled x1 x2 x3 x4 x5 x6 xs0 := by
  unfold out0_B_7
  rw [View.read_writes_eq_canon _ _ _ (cover0_B_7 c i arg2 harg2 arg3 harg3 arg4 harg4 arg5 harg5 arg6 harg6 arg7 harg7 arg8 harg8 arg9 harg9 arg10 harg10 hc0 x0 x1 x2 x3 x4 x5 x6 xs0)]
  unfold kernelRun0_B
  dsimp only
  sl_unfold_words
  rw [View.canon_unit_zero hz3]
  unfold sampled
  simp only [View.readAt_eq_ld, harg3.read_unread, harg4.read_unread, harg5.read_unread, harg6.read_unread, harg7.read_unread, harg8.read_unread, harg10.read_unread, View.ld_unit_zero (S := S1x1x512) hz3, View.ld_unit_zero (S := S256x4096) hz2]

end Cert.KernelIdeal.Sampled

end
-- ==== Proof.KernelPoints.lean ====
/-
  The grid's 128 points, one by one: point `t` is query block `t % 4` of batch `t / 4`.

  Every window's block index is decided over the grid; a block read at an index is the window's array read at the
  batch `t / 4` and, for the per-query windows, at query `512 (t % 4) + n`. The carried feature copy after ANY point
  is the copy of the point's own feature block (the four points of a batch share the block), by induction on the
  point; so what every point writes back is `sampled` of its own blocks.
-/
import proofs.«139457_j5995774345370_2_alg».proof.Proof.KernelPieces
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Sampled

open Cert.KernelIdeal Cert.KernelIdeal.Gen

variable {F : FTy → Type} [FloatOps F]
variable (m : (ℓ : Loc nD τ sig) → Buf (Elt F) ℓ)

/-- The printed index maps, decided over the 128 points. -/
theorem idx_facts : ∀ t : Fin cfg0.N,
    (win0_0.index t (0 : Fin 3) = t.val / 4 ∧ win0_0.index t (1 : Fin 3) = 0 ∧ win0_0.index t (2 : Fin 3) = 0)
    ∧ (win0_1.index t (0 : Fin 3) = t.val / 4 ∧ win0_1.index t (1 : Fin 3) = 0 ∧ win0_1.index t (2 : Fin 3) = t.val % 4)
    ∧ (win0_2.index t (0 : Fin 3) = t.val / 4 ∧ win0_2.index t (1 : Fin 3) = 0 ∧ win0_2.index t (2 : Fin 3) = t.val % 4)
    ∧ (win0_3.index t (0 : Fin 3) = t.val / 4 ∧ win0_3.index t (1 : Fin 3) = 0 ∧ win0_3.index t (2 : Fin 3) = t.val % 4)
    ∧ (win0_4.index t (0 : Fin 3) = t.val / 4 ∧ win0_4.index t (1 : Fin 3) = 0 ∧ win0_4.index t (2 : Fin 3) = t.val % 4)
    ∧ (win0_5.index t (0 : Fin 3) = t.val / 4 ∧ win0_5.index t (1 : Fin 3) = 0 ∧ win0_5.index t (2 : Fin 3) = t.val % 4)
    ∧ (win0_6.index t (0 : Fin 3) = t.val / 4 ∧ win0_6.index t (1 : Fin 3) = 0 ∧ win0_6.index t (2 : Fin 3) = t.val % 4)
    ∧ (win0_7.index t (0 : Fin 3) = t.val / 4 ∧ win0_7.index t (1 : Fin 3) = t.val % 4 ∧ win0_7.index t (2 : Fin 3) = 0) :=
  (by decide +kernel : ∀ t : Fin grid0.N, _)

/-- The batch a point works on. -/
def batchOf (t : Fin cfg0.N) : Fin 32 :=
  ⟨t.val / 4, by have h := lt_of_lt_of_eq t.isLt (show cfg0.N = 128 from N_0); omega⟩

/-- Query `n` of a point's query block, among its batch's 2048 queries. -/
def queryOf (t : Fin cfg0.N) (n : Fin 512) : Fin 2048 :=
  ⟨t.val % 4 * 512 + n.val, by have h := n.isLt; omega⟩

/-- The feature window's block at a point: the point's batch of the (flattened) feature maps. -/
theorem feat_block (c : Dev nD) (t : Fin cfg0.N) (y : S1x256x4096.Idx) :
    iblk m c 0 t y = (V m c main_v27 : S32x256x4096.Idx → Elt F .f32) (ix3 (batchOf t) (y 1) (y 2)) := by
  obtain ⟨⟨e0, e1, e2⟩, -, -, -, -, -, -, -⟩ := idx_facts t
  show V m c main_v27 (((cfg0.win 0).blk t).view.emb y) = V m c main_v27 _
  refine congrArg _ (funext fun a => Fin.ext ?_)
  match a with
  | ⟨0, _⟩ => show win0_0.index t (0 : Fin 3) * 1 + 1 * (y 0).val = t.val / 4; have hy : (y 0).val < 1 := (y 0).isLt; omega
  | ⟨1, _⟩ => show win0_0.index t (1 : Fin 3) * 256 + 1 * (y 1).val = (y 1).val; omega
  | ⟨2, _⟩ => show win0_0.index t (2 : Fin 3) * 4096 + 1 * (y 2).val = (y 2).val; omega

/-- Window 1's block at a point: the 512 queries of the point's query block, in the point's batch. -/
theorem query_block1 (c : Dev nD) (t : Fin cfg0.N) (y : S1x1x512.Idx) :
    iblk m c 1 t y = (V m c main_v21 : S32x1x2048.Idx → BitVec 32) (ix3 (batchOf t) 0 (queryOf t (y 2))) := by
  obtain ⟨-, ⟨e0, e1, e2⟩, -, -, -, -, -, -⟩ := idx_facts t
  show V m c main_v21 (((cfg0.win 1).blk t).view.emb y) = V m c main_v21 _
  refine congrArg _ (funext fun a => Fin.ext ?_)
  match a with
  | ⟨0, _⟩ => show win0_1.index t (0 : Fin 3) * 1 + 1 * (y 0).val = t.val / 4; have hy : (y 0).val < 1 := (y 0).isLt; omega
  | ⟨1, _⟩ => show win0_1.index t (1 : Fin 3) * 1 + 1 * (y 1).val = 0; have hy : (y 1).val < 1 := (y 1).isLt; omega
  | ⟨2, _⟩ => show win0_1.index t (2 : Fin 3) * 512 + 1 * (y 2).val = t.val % 4 * 512 + (y 2).val; omega

/-- Window 2's block at a point: the 512 queries of the point's query block, in the point's batch. -/
theorem query_block2 (c : Dev nD) (t : Fin cfg0.N) (y : S1x1x512.Idx) :
    iblk m c 2 t y = (V m c main_v22 : S32x1x2048.Idx → BitVec 32) (ix3 (batchOf t) 0 (queryOf t (y 2))) := by
  obtain ⟨-, -, ⟨e0, e1, e2⟩, -, -, -, -, -⟩ := idx_facts t
  show V m c main_v22 (((cfg0.win 2).blk t).view.emb y) = V m c main_v22 _
  refine congrArg _ (funext fun a => Fin.ext ?_)
  match a with
  | ⟨0, _⟩ => show win0_2.index t (0 : Fin 3) * 1 + 1 * (y 0).val = t.val / 4; have hy : (y 0).val < 1 := (y 0).isLt; omega
  | ⟨1, _⟩ => show win0_2.index t (1 : Fin 3) * 1 + 1 * (y 1).val = 0; have hy : (y 1).val < 1 := (y 1).isLt; omega
  | ⟨2, _⟩ => show win0_2.index t (2 : Fin 3) * 512 + 1 * (y 2).val = t.val % 4 * 512 + (y 2).val; omega

/-- Window 3's block at a point: the 512 queries of the point's query block, in the point's batch. -/
theorem query_block3 (c : Dev nD) (t : Fin cfg0.N) (y : S1x1x512.Idx) :
    iblk m c 3 t y = (V m c main_v23 : S32x1x2048.Idx → BitVec 32) (ix3 (batchOf t) 0 (queryOf t (y 2))) := by
  obtain ⟨-, -, -, ⟨e0, e1, e2⟩, -, -, -, -⟩ := idx_facts t
  show V m c main_v23 (((cfg0.win 3).blk t).view.emb y) = V m c main_v23 _
  refine congrArg _ (funext fun a => Fin.ext ?_)
  match a with
  | ⟨0, _⟩ => show win0_3.index t (0 : Fin 3) * 1 + 1 * (y 0).val = t.val / 4; have hy : (y 0).val < 1 := (y 0).isLt; omega
  | ⟨1, _⟩ => show win0_3.index t (1 : Fin 3) * 1 + 1 * (y 1).val = 0; have hy : (y 1).val < 1 := (y 1).isLt; omega
  | ⟨2, _⟩ => show win0_3.index t (2 : Fin 3) * 512 + 1 * (y 2).val = t.val % 4 * 512 + (y 2).val; omega

/-- Window 4's block at a point: the 512 queries of the point's query block, in the point's batch. -/
theorem query_block4 (c : Dev nD) (t : Fin cfg0.N) (y : S1x1x512.Idx) :
    iblk m c 4 t y = (V m c main_v24 : S32x1x2048.Idx → BitVec 32) (ix3 (batchOf t) 0 (queryOf t (y 2))) := by
  obtain ⟨-, -, -, -, ⟨e0, e1, e2⟩, -, -, -⟩ := idx_facts t
  show V m c main_v24 (((cfg0.win 4).blk t).view.emb y) = V m c main_v24 _
  refine congrArg _ (funext fun a => Fin.ext ?_)
  match a with
  | ⟨0, _⟩ => show win0_4.index t (0 : Fin 3) * 1 + 1 * (y 0).val = t.val / 4; have hy : (y 0).val < 1 := (y 0).isLt; omega
  | ⟨1, _⟩ => show win0_4.index t (1 : Fin 3) * 1 + 1 * (y 1).val = 0; have hy : (y 1).val < 1 := (y 1).isLt; omega
  | ⟨2, _⟩ => show win0_4.index t (2 : Fin 3) * 512 + 1 * (y 2).val = t.val % 4 * 512 + (y 2).val; omega

/-- Window 5's block at a point: the 512 queries of the point's query block, in the point's batch. -/
theorem query_block5 (c : Dev nD) (t : Fin cfg0.N) (y : S1x1x512.Idx) :
    iblk m c 5 t y = (V m c main_v25 : S32x1x2048.Idx → Elt F .f32) (ix3 (batchOf t) 0 (queryOf t (y 2))) := by
  obtain ⟨-, -, -, -, -, ⟨e0, e1, e2⟩, -, -⟩ := idx_facts t
  show V m c main_v25 (((cfg0.win 5).blk t).view.emb y) = V m c main_v25 _
  refine congrArg _ (funext fun a => Fin.ext ?_)
  match a with
  | ⟨0, _⟩ => show win0_5.index t (0 : Fin 3) * 1 + 1 * (y 0).val = t.val / 4; have hy : (y 0).val < 1 := (y 0).isLt; omega
  | ⟨1, _⟩ => show win0_5.index t (1 : Fin 3) * 1 + 1 * (y 1).val = 0; have hy : (y 1).val < 1 := (y 1).isLt; omega
  | ⟨2, _⟩ => show win0_5.index t (2 : Fin 3) * 512 + 1 * (y 2).val = t.val % 4 * 512 + (y 2).val; omega

/-- Window 6's block at a point: the 512 queries of the point's query block, in the point's batch. -/
theorem query_block6 (c : Dev nD) (t : Fin cfg0.N) (y : S1x1x512.Idx) :
    iblk m c 6 t y = (V m c main_v26 : S32x1x2048.Idx → Elt F .f32) (ix3 (batchOf t) 0 (queryOf t (y 2))) := by
  obtain ⟨-, -, -, -, -, -, ⟨e0, e1, e2⟩, -⟩ := idx_facts t
  show V m c main_v26 (((cfg0.win 6).blk t).view.emb y) = V m c main_v26 _
  refine congrArg _ (funext fun a => Fin.ext ?_)
  match a with
  | ⟨0, _⟩ => show win0_6.index t (0 : Fin 3) * 1 + 1 * (y 0).val = t.val / 4; have hy : (y 0).val < 1 := (y 0).isLt; omega
  | ⟨1, _⟩ => show win0_6.index t (1 : Fin 3) * 1 + 1 * (y 1).val = 0; have hy : (y 1).val < 1 := (y 1).isLt; omega
  | ⟨2, _⟩ => show win0_6.index t (2 : Fin 3) * 512 + 1 * (y 2).val = t.val % 4 * 512 + (y 2).val; omega

/-- Two points of one batch see the same feature block, hence the same copy of it. -/
theorem copy_congr (c : Dev nD) (t t' : Fin cfg0.N) (h : t.val / 4 = t'.val / 4) :
    (k0_pay2 (iblk m c 0 t) : Vec F S256x4096 .bf16) = k0_pay2 (iblk m c 0 t') := by
  refine congrArg k0_pay2 (funext fun y => ?_)
  rw [feat_block m c t y, feat_block m c t' y]
  have hb : batchOf t = batchOf t' := Fin.ext h
  rw [hb]

/-- At a point that opens a batch the carried copy is the copy of the point's feature block, just stored. -/
theorem copy_at_first (c : Dev nD) (t : Fin cfg0.N) (h0 : t.val % 4 = 0) :
    (outsAt0 m c t.val t.isLt).2 = k0_pay2 (iblk m c 0 t) := by
  rw [outsAt0_A m c t h0]
  dsimp only
  exact scratch_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)

/-- At any other point the carried copy is what the point before left. -/
theorem copy_at_later (c : Dev nD) (t : Fin cfg0.N) (h0 : ¬t.val % 4 = 0) :
    (outsAt0 m c t.val t.isLt).2 = (outsAt0 m c (t.val - 1) (Nat.lt_of_le_of_lt (Nat.sub_le _ _) t.isLt)).2 := by
  rw [outsAt0_B m c t h0]
  dsimp only
  unfold sout0_B_0
  rfl

/-- THE CARRIED COPY after point `n` is the copy of that point's own feature block: stored there when the point
    opens a batch, else left by the point before, which is in the same batch. -/
theorem copy_eq (c : Dev nD) : ∀ (n : ℕ) (h : n < cfg0.N), (outsAt0 m c n h).2 = k0_pay2 (iblk m c 0 ⟨n, h⟩)
  | 0, h => copy_at_first m c ⟨0, h⟩ rfl
  | n + 1, h => by
    by_cases h0 : (n + 1) % 4 = 0
    · exact copy_at_first m c ⟨n + 1, h⟩ h0
    · refine (copy_at_later m c ⟨n + 1, h⟩ h0).trans ?_
      show (outsAt0 m c n _).2 = _
      refine (copy_eq c n (Nat.lt_of_succ_lt h)).trans ?_
      exact copy_congr m c ⟨n, Nat.lt_of_succ_lt h⟩ ⟨n + 1, h⟩ (by show n / 4 = (n + 1) / 4; omega)

/-- WHAT POINT `t` WRITES BACK: `sampled` of its six per-query blocks and of the copy of its feature block. -/
theorem flushed_eq (c : Dev nD) (t : Fin cfg0.N) :
    (dats m 0 c).flushed 7 t = (cfg0.win 7).cut (grid0.coords t)
      (sampled (iblk m c 1 t) (iblk m c 2 t) (iblk m c 3 t) (iblk m c 4 t) (iblk m c 5 t) (iblk m c 6 t) (k0_pay2 (iblk m c 0 t))) := by
  have hN := lt_of_lt_of_eq t.isLt (show cfg0.N = 128 from N_0)
  by_cases h0 : t.val % 4 = 0
  · rw [Cert.KernelIdeal.Value.flushed7_A m c t h0,
      out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (iblk m c 0 t) (iblk m c 1 t) (iblk m c 2 t) (iblk m c 3 t) (iblk m c 4 t) (iblk m c 5 t) (iblk m c 6 t)]
  · rw [Cert.KernelIdeal.Value.flushed7_B m c t h0,
      out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2,
      copy_eq m c (t.val - 1) (Nat.lt_of_le_of_lt (Nat.sub_le _ _) t.isLt),
      copy_congr m c ⟨t.val - 1, Nat.lt_of_le_of_lt (Nat.sub_le _ _) t.isLt⟩ t (by show (t.val - 1) / 4 = t.val / 4; omega)]

end Cert.KernelIdeal.Sampled

end
-- ==== Proof.KernelArray.lean ====
/-
  From blocks to the array: the result array after the run, entry by entry.

  Entry `(b, n, c)` lies in the block of exactly one point, query block `n / 512` of batch `b`, at position
  `(n % 512, c)` of that block; the 128 blocks tile the array. So the array ends holding, at every entry, `sampled` of
  the per-query rows and the feature rows of that batch read off the arrays the region found.
-/
import proofs.«139457_j5995774345370_2_alg».proof.Proof.KernelPoints

noncomputable section

open Idealize.ShloMosaic Idealize.ShloMosaic.TcCoe Idealize.SL.Sem Idealize.ShloMosaic.ValueIdx
open Idealize.ShloMosaic.Pipeline (Dat)

namespace Cert.KernelIdeal.Sampled

open Cert.KernelIdeal Cert.KernelIdeal.Gen

variable {F : FTy → Type} [FloatOps F]
variable (m : (ℓ : Loc nD τ sig) → Buf (Elt F) ℓ)

/-- The 512 queries of query block `q` of batch `b`, read off a per-query array `[32, 1, 2048]`. -/
def queryRow {α : Type} (A : S32x1x2048.Idx → α) (b : Fin 32) (q : Fin 4) : S1x1x512.Idx → α :=
  fun y => A (ix3 b 0 ⟨q.val * 512 + (y 2).val, by have h : (y 2).val < 512 := (y 2).isLt; have := q.isLt; omega⟩)

/-- Batch `b` of the flattened feature maps `[32, 256, 4096]`. -/
def featRows {α : Type} (A : S32x256x4096.Idx → α) (b : Fin 32) : S1x256x4096.Idx → α :=
  fun y => A (ix3 b (y 1) (y 2))

/-- The query block a point works on. -/
def blockOf (t : Fin cfg0.N) : Fin 4 := ⟨t.val % 4, Nat.mod_lt _ (by decide)⟩

/-- The query block of query `n`, and its position in that block. -/
def qblock (n : Fin 2048) : Fin 4 := ⟨n.val / 512, by have := n.isLt; omega⟩
def qwithin (n : Fin 2048) : Fin 512 := ⟨n.val % 512, Nat.mod_lt _ (by decide)⟩

theorem iblk0_eq (c : Dev nD) (t : Fin cfg0.N) :
    (iblk m c 0 t : S1x256x4096.Idx → Elt F .f32) = featRows (V m c main_v27 : S32x256x4096.Idx → Elt F .f32) (batchOf t) :=
  funext fun y => feat_block m c t y

theorem iblk1_eq (c : Dev nD) (t : Fin cfg0.N) :
    (iblk m c 1 t : S1x1x512.Idx → BitVec 32) = queryRow (V m c main_v21 : S32x1x2048.Idx → BitVec 32) (batchOf t) (blockOf t) :=
  funext fun y => query_block1 m c t y

theorem iblk2_eq (c : Dev nD) (t : Fin cfg0.N) :
    (iblk m c 2 t : S1x1x512.Idx → BitVec 32) = queryRow (V m c main_v22 : S32x1x2048.Idx → BitVec 32) (batchOf t) (blockOf t) :=
  funext fun y => query_block2 m c t y

theorem iblk3_eq (c : Dev nD) (t : Fin cfg0.N) :
    (iblk m c 3 t : S1x1x512.Idx → BitVec 32) = queryRow (V m c main_v23 : S32x1x2048.Idx → BitVec 32) (batchOf t) (blockOf t) :=
  funext fun y => query_block3 m c t y

theorem iblk4_eq (c : Dev nD) (t : Fin cfg0.N) :
    (iblk m c 4 t : S1x1x512.Idx → BitVec 32) = queryRow (V m c main_v24 : S32x1x2048.Idx → BitVec 32) (batchOf t) (blockOf t) :=
  funext fun y => query_block4 m c t y

theorem iblk5_eq (c : Dev nD) (t : Fin cfg0.N) :
    (iblk m c 5 t : S1x1x512.Idx → Elt F .f32) = queryRow (V m c main_v25 : S32x1x2048.Idx → Elt F .f32) (batchOf t) (blockOf t) :=
  funext fun y => query_block5 m c t y

theorem iblk6_eq (c : Dev nD) (t : Fin cfg0.N) :
    (iblk m c 6 t : S1x1x512.Idx → Elt F .f32) = queryRow (V m c main_v26 : S32x1x2048.Idx → Elt F .f32) (batchOf t) (blockOf t) :=
  funext fun y => query_block6 m c t y

/-- THE ARRAY the run leaves in the result: entry `(b, n, c)` is entry `(n % 512, c)` of `sampled` over the rows of
    batch `b`, query block `n / 512`. -/
def kernelArray (c : Dev nD) : S32x2048x256.Idx → Elt F .f32 := fun i =>
  sampled (queryRow (V m c main_v21 : S32x1x2048.Idx → BitVec 32) (i 0) (qblock (i 1))) (queryRow (V m c main_v22 : S32x1x2048.Idx → BitVec 32) (i 0) (qblock (i 1))) (queryRow (V m c main_v23 : S32x1x2048.Idx → BitVec 32) (i 0) (qblock (i 1))) (queryRow (V m c main_v24 : S32x1x2048.Idx → BitVec 32) (i 0) (qblock (i 1))) (queryRow (V m c main_v25 : S32x1x2048.Idx → Elt F .f32) (i 0) (qblock (i 1))) (queryRow (V m c main_v26 : S32x1x2048.Idx → Elt F .f32) (i 0) (qblock (i 1)))
    (k0_pay2 (featRows (V m c main_v27 : S32x256x4096.Idx → Elt F .f32) (i 0))) (ix3 0 (qwithin (i 1)) (i 2))

/-- The same with the entry's coordinates named. -/
theorem kernelArray_at (c : Dev nD) (b : Fin 32) (q : Fin 4) (n : Fin 512) (ch : Fin 256) (i : S32x2048x256.Idx)
    (h0 : (i 0).val = b.val) (h1 : (i 1).val = q.val * 512 + n.val) (h2 : (i 2).val = ch.val) :
    kernelArray m c i = sampled (queryRow (V m c main_v21 : S32x1x2048.Idx → BitVec 32) b q) (queryRow (V m c main_v22 : S32x1x2048.Idx → BitVec 32) b q) (queryRow (V m c main_v23 : S32x1x2048.Idx → BitVec 32) b q) (queryRow (V m c main_v24 : S32x1x2048.Idx → BitVec 32) b q) (queryRow (V m c main_v25 : S32x1x2048.Idx → Elt F .f32) b q) (queryRow (V m c main_v26 : S32x1x2048.Idx → Elt F .f32) b q)
      (k0_pay2 (featRows (V m c main_v27 : S32x256x4096.Idx → Elt F .f32) b)) (ix3 0 n ch) := by
  have e0 : i 0 = b := Fin.ext h0
  have e1 : qblock (i 1) = q := Fin.ext (by show (i 1).val / 512 = q.val; have := n.isLt; omega)
  have e1' : qwithin (i 1) = n := Fin.ext (by show (i 1).val % 512 = n.val; have := n.isLt; omega)
  have e2 : i 2 = ch := Fin.ext h2
  unfold kernelArray
  rw [e0, e1, e1', e2]

/-- WHAT POINT `t` WRITES BACK is block `t` of that array. -/
theorem flushed_block (c : Dev nD) (t : Fin cfg0.N) :
    (dats m 0 c).flushed 7 t = ((cfg0.win 7).blk t).view.read (Elt F) (kernelArray m c) := by
  obtain ⟨-, -, -, -, -, -, -, ⟨e0, e1, e2⟩⟩ := idx_facts t
  rw [flushed_eq m c t, iblk0_eq m c t, iblk1_eq m c t, iblk2_eq m c t, iblk3_eq m c t, iblk4_eq m c t, iblk5_eq m c t, iblk6_eq m c t]
  funext y
  have hy0 : (y 0).val < 1 := (y 0).isLt
  have hy1 : (y 1).val < 512 := (y 1).isLt
  have hy2 : (y 2).val < 256 := (y 2).isLt
  rw [View.read_apply,
    kernelArray_at m c (batchOf t) (blockOf t) ⟨(y 1).val, hy1⟩ ⟨(y 2).val, hy2⟩ (((cfg0.win 7).blk t).view.emb y)
      (by show win0_7.index t (0 : Fin 3) * 1 + 1 * (y 0).val = t.val / 4; omega)
      (by show win0_7.index t (1 : Fin 3) * 512 + 1 * (y 1).val = t.val % 4 * 512 + (y 1).val; omega)
      (by show win0_7.index t (2 : Fin 3) * 256 + 1 * (y 2).val = (y 2).val; omega)]
  refine congrArg (sampled (queryRow (V m c main_v21 : S32x1x2048.Idx → BitVec 32) (batchOf t) (blockOf t)) (queryRow (V m c main_v22 : S32x1x2048.Idx → BitVec 32) (batchOf t) (blockOf t)) (queryRow (V m c main_v23 : S32x1x2048.Idx → BitVec 32) (batchOf t) (blockOf t)) (queryRow (V m c main_v24 : S32x1x2048.Idx → BitVec 32) (batchOf t) (blockOf t)) (queryRow (V m c main_v25 : S32x1x2048.Idx → Elt F .f32) (batchOf t) (blockOf t)) (queryRow (V m c main_v26 : S32x1x2048.Idx → Elt F .f32) (batchOf t) (blockOf t))
    (k0_pay2 (featRows (V m c main_v27 : S32x256x4096.Idx → Elt F .f32) (batchOf t)))) (funext fun a => Fin.ext ?_)
  match a with
  | ⟨0, _⟩ => show (y 0).val = 0; omega
  | ⟨1, _⟩ => rfl
  | ⟨2, _⟩ => rfl

/-- An index of the array is in point `t`'s block iff each coordinate is in the block's range on its axis. -/
theorem mem_block (t : Fin cfg0.N) (i : S32x2048x256.Idx) :
    i ∈ ((cfg0.win 7).blk t).view.set ↔ ∀ a : Fin 3, win0_7.index t a * S1x512x256.size a ≤ (i a).val
      ∧ (i a).val < win0_7.index t a * S1x512x256.size a + S1x512x256.size a := by
  show i ∈ ((View.whole main_v28).slice (win0_7.rect t)).set ↔ _
  rw [View.set_slice_whole, Rect.mem_set_unit]
  exact Iff.rfl

/-- THE ARRAY after the run: the 128 blocks tile it, so it is `kernelArray` everywhere. -/
theorem final_array (c : Dev nD) : (dats m 0 c).arrAt 7 cfg0.N = kernelArray m c :=
  (dats m 0 c).arrAt_eq_of_cover 7 (kernelArray m c) (fun t _ => flushed_block m c t) fun i => by
    have h0 : (i 0).val < 32 := (i 0).isLt
    have h1 : (i 1).val < 2048 := (i 1).isLt
    have h2 : (i 2).val < 256 := (i 2).isLt
    obtain ⟨t, ht⟩ : ∃ t : Fin cfg0.N, t.val = 4 * (i 0).val + (i 1).val / 512 :=
      ⟨⟨4 * (i 0).val + (i 1).val / 512, lt_of_lt_of_eq (by omega) (show cfg0.N = 128 from N_0).symm⟩, rfl⟩
    obtain ⟨-, -, -, -, -, -, -, ⟨e0, e1, e2⟩⟩ := idx_facts t
    refine ⟨t, flush0_7 t, ?_⟩
    rw [mem_block]
    intro a
    match a with
    | ⟨0, _⟩ => show win0_7.index t (0 : Fin 3) * 1 ≤ (i 0).val ∧ (i 0).val < win0_7.index t (0 : Fin 3) * 1 + 1; omega
    | ⟨1, _⟩ => show win0_7.index t (1 : Fin 3) * 512 ≤ (i 1).val ∧ (i 1).val < win0_7.index t (1 : Fin 3) * 512 + 512; omega
    | ⟨2, _⟩ => show win0_7.index t (2 : Fin 3) * 256 ≤ (i 2).val ∧ (i 2).val < win0_7.index t (2 : Fin 3) * 256 + 256; omega

end Cert.KernelIdeal.Sampled

end
-- ==== Proof.LibContractCols.lean ====
/-
  Columns against rows: the contraction `[K, M] × [N, K] → [M, N]` over the FIRST axis of the left operand and the
  LAST axis of the right one, read at an index.

  For the dimension numbers "contract axis 0 with axis 1, no batch axis" (`colsRows M K N`) the entry `(p, q)` of the
  product is `Σ_k l[k,p] · r[q,k]`: column `p` of the left operand against row `q` of the right one. The contraction's
  own index type has one axis of extent `K`; the sum is re-indexed over `Fin K` through that axis, and the operand
  indices the dimension numbers compute are then `(k, p)` and `(q, k)`. Stated for a matrix product into a zero
  accumulator on the extended reals, where it is that plain sum, and for any record of dimension numbers equal to
  `colsRows M K N`.
-/
import Idealize.ShloMosaic.PureOps.Ideal.Laws
import Idealize.ShloMosaic.Lib.ValueIdx

noncomputable section

namespace Idealize.ShloMosaic.ContractCols

open Idealize.ShloMosaic Idealize.ShloMosaic.ValueIdx

/-- `<[0], [1], [1], [0], [], []>`: `K×M` by `N×K`, the left operand contracted on its first axis, the right one on
    its last. -/
def colsRows (M K N : Nat) : DotDims ⟨2, ![K, M]⟩ ⟨2, ![N, K]⟩ ⟨2, ![M, N]⟩ where
  lhsContracting := [0]
  rhsContracting := [1]
  lhsNonContracting := [1]
  rhsNonContracting := [0]
  lhsBatch := []
  rhsBatch := []
  wf := ⟨rfl, by simp, rfl, by simp, by simp, by simp, by simpa [List.finRange] using List.Perm.swap 0 1 [],
    by simp [List.finRange], rfl, Nat.two_pos, fun b => by fin_cases b <;> rfl⟩

variable {M K N : Nat}

/-- The left operand's index keeps the output's row as its column. -/
theorem lhs_col (j : (⟨2, ![M, N]⟩ : Shape).Idx) (k : (colsRows M K N).contr.Idx) :
    ((colsRows M K N).lhsIdx j k 1).val = (j 0).val := by
  unfold DotDims.lhsIdx
  rw [dif_neg (show ¬(1 : Fin (⟨2, ![K, M]⟩ : Shape).rank) ∈ (colsRows M K N).lhsBatch from List.not_mem_nil),
    dif_pos (show (1 : Fin (⟨2, ![K, M]⟩ : Shape).rank) ∈ (colsRows M K N).lhsNonContracting from List.mem_singleton.mpr rfl)]
  rfl

/-- The left operand's index runs along its first axis with the contraction. -/
theorem lhs_row (j : (⟨2, ![M, N]⟩ : Shape).Idx) (k : (colsRows M K N).contr.Idx) :
    ((colsRows M K N).lhsIdx j k 0).val = (k ⟨0, Nat.zero_lt_one⟩).val :=
  (colsRows M K N).lhsIdx_val_of_single rfl j k

/-- The right operand's index takes its row from the output's column. -/
theorem rhs_row (j : (⟨2, ![M, N]⟩ : Shape).Idx) (k : (colsRows M K N).contr.Idx) :
    ((colsRows M K N).rhsIdx j k 0).val = (j 1).val := by
  unfold DotDims.rhsIdx
  rw [dif_neg (show ¬(0 : Fin (⟨2, ![N, K]⟩ : Shape).rank) ∈ (colsRows M K N).rhsBatch from List.not_mem_nil),
    dif_pos (show (0 : Fin (⟨2, ![N, K]⟩ : Shape).rank) ∈ (colsRows M K N).rhsNonContracting from List.mem_singleton.mpr rfl)]
  rfl

/-- The right operand's index runs along its last axis with the contraction. -/
theorem rhs_col (j : (⟨2, ![M, N]⟩ : Shape).Idx) (k : (colsRows M K N).contr.Idx) :
    ((colsRows M K N).rhsIdx j k 1).val = (k ⟨0, Nat.zero_lt_one⟩).val :=
  (colsRows M K N).rhsIdx_val_of_single rfl j k

/-- THE SUM: over the contraction's index it is the sum over `k : Fin K` of column `p` against row `q`. -/
theorem sum_cols_rows (l : (⟨2, ![K, M]⟩ : Shape).Idx → EReal) (r : (⟨2, ![N, K]⟩ : Shape).Idx → EReal) (p : Fin M) (q : Fin N) :
    (∑ k : (colsRows M K N).contr.Idx,
        l ((colsRows M K N).lhsIdx (ix2 p q) k) * r ((colsRows M K N).rhsIdx (ix2 p q) k))
      = ∑ k : Fin K, l (ix2 k p) * r (ix2 q k) := by
  rw [← Equiv.sum_comp (contrEquiv1 (colsRows M K N) K rfl rfl).symm]
  refine Finset.sum_congr rfl fun k _ => ?_
  have hk := contrEquiv1_symm_val (colsRows M K N) K rfl rfl k
  have el : (colsRows M K N).lhsIdx (ix2 p q) ((contrEquiv1 (colsRows M K N) K rfl rfl).symm k) = ix2 k p :=
    funext fun a => Fin.ext (by
      match a with
      | ⟨0, _⟩ => exact (lhs_row _ _).trans hk
      | ⟨1, _⟩ => exact lhs_col _ _)
  have er : (colsRows M K N).rhsIdx (ix2 p q) ((contrEquiv1 (colsRows M K N) K rfl rfl).symm k) = ix2 q k :=
    funext fun a => Fin.ext (by
      match a with
      | ⟨0, _⟩ => exact rhs_row _ _
      | ⟨1, _⟩ => exact (rhs_col _ _).trans hk)
  rw [el, er]

/-- A matrix product into the zero accumulator, columns against rows, at `(p, q)`, for any record of dimension
    numbers that is `colsRows M K N`. -/
theorem matmul_zero_apply {φ₁ φ₂ : FTy} (d : DotDims ⟨2, ![K, M]⟩ ⟨2, ![N, K]⟩ ⟨2, ![M, N]⟩) (hd : d = colsRows M K N)
    (prec : Option ContractPrecision)
    (l : FVec Ideal (⟨2, ![K, M]⟩ : Shape) φ₁) (r : FVec Ideal (⟨2, ![N, K]⟩ : Shape) φ₂) (p : Fin M) (q : Fin N) :
    FloatOps.matmul d prec l r (constant (⟨2, ![M, N]⟩ : Shape) .f32 0x00000000#32) (ix2 p q)
      = ∑ k : Fin K, l (ix2 k p) * r (ix2 q k) := by
  subst hd
  exact (Ideal.matmul_constant_zero_apply (colsRows M K N) prec l r (ix2 p q)).trans (sum_cols_rows l r p q)

end Idealize.ShloMosaic.ContractCols

end
-- ==== Proof.Spec.lean ====
/-
  The specification both programs meet: bilinear sampling of a 64 x 64 feature map.

  A normalised coordinate `a` is scaled to the pixel coordinate `pix a = min 63 (max 0 (63 a))`; its two
  neighbouring grid lines are `lo a = ⌊pix a⌋` and `hi a = ⌈pix a⌉` (as 32-bit words) and `frac a = pix a - lo a`
  is its offset from the lower one. For a query `(x, y)` the sampled value of a feature map `f` is the linear
  interpolation in `y` of the two linear interpolations in `x` along the rows `lo y` and `hi y` (`bil`).
  The same number is the sum over all 4096 cells `(h, w)` of `f h w` weighted by `wgt h · wgt w`, where a line's
  weight is `1 - frac` on `lo`, `frac` on `hi` and `0` elsewhere, the two added where `lo = hi` (`ksum`).
-/
import Idealize.ShloMosaic.PureOps.Ideal
import Idealize.ShloMosaic.Lib.ValueIdx

noncomputable section

open scoped BigOperators

namespace Cert.Spec

open Idealize.ShloMosaic Idealize.ShloMosaic.ValueIdx

/-- The pixel coordinate of a normalised coordinate: scaled by 63 and clipped to `[0, 63]`. -/
def pix (a : EReal) : EReal := min ((63 : ℝ) : EReal) (max 0 (a * ((63 : ℝ) : EReal)))

/-- The grid line at or below the pixel coordinate, as a 32-bit word. -/
def lo (a : EReal) : BitVec 32 := Ideal.fptosi 32 (Ideal.liftRound Int.floor (pix a))

/-- The grid line at or above the pixel coordinate, as a 32-bit word. -/
def hi (a : EReal) : BitVec 32 := Ideal.fptosi 32 (Ideal.liftRound Int.ceil (pix a))

/-- The offset of the pixel coordinate from the grid line below it. -/
def frac (a : EReal) : EReal := pix a - (((lo a).toInt : ℝ) : EReal)

/-- A word read as a grid line `0 … 63`. -/
def line (w : BitVec 32) : Fin 64 := ⟨w.toNat % 64, Nat.mod_lt _ (by decide)⟩

/-- Interpolation in `x` along the rows `y0` and `y1`, then in `y` between the two. -/
def bil (f : Fin 64 → Fin 64 → EReal) (y0 y1 x0 x1 : Fin 64) (dy dx : EReal) : EReal :=
  (f y0 x0 + (f y0 x1 - f y0 x0) * dx)
    + ((f y1 x0 + (f y1 x1 - f y1 x0) * dx) - (f y0 x0 + (f y0 x1 - f y0 x0) * dx)) * dy

/-- The weight of grid line `h` for a coordinate between the lines `l0 ≤ l1` at offset `d` from `l0`. -/
def wgt (h l0 l1 : ℕ) (d : EReal) : EReal :=
  (if h = l0 then 1 - d else 0) + (if h = l1 then d else 0)

/-- The weighted sum over all cells of the map, cell `k = 64 h + w`. -/
def ksum (f : Fin 64 → Fin 64 → EReal) (y0 y1 x0 x1 : Fin 64) (dy dx : EReal) : EReal :=
  ∑ k : Fin 4096, (wgt (k.val / 64) y0.val y1.val dy * wgt (k.val % 64) x0.val x1.val dx)
    * f ⟨k.val / 64, Nat.div_lt_of_lt_mul k.isLt⟩ ⟨k.val % 64, Nat.mod_lt _ (by decide)⟩

/-- THE RESULT: entry `(b, n, c)` samples channel `c` of batch `b`'s feature map at query `n` of that batch,
    whose normalised coordinates are `a1 (b, n, 0)` (x) and `a1 (b, n, 1)` (y). -/
def G (a0 : (⟨4, ![32, 256, 64, 64]⟩ : Shape).Idx → EReal) (a1 : (⟨3, ![32, 2048, 2]⟩ : Shape).Idx → EReal) :
    (⟨3, ![32, 2048, 256]⟩ : Shape).Idx → EReal := fun i =>
  bil (fun h w => a0 (ix4 (i 0) (i 2) h w))
    (line (lo (a1 (ix3 (i 0) (i 1) 1)))) (line (hi (a1 (ix3 (i 0) (i 1) 1))))
    (line (lo (a1 (ix3 (i 0) (i 1) 0)))) (line (hi (a1 (ix3 (i 0) (i 1) 0))))
    (frac (a1 (ix3 (i 0) (i 1) 1))) (frac (a1 (ix3 (i 0) (i 1) 0)))

end Cert.Spec

end
-- ==== Proof.Bilinear.lean ====
/-
  Bilinear interpolation on a 64 x 64 grid as a weighted sum over all grid cells.

  * The two float words met in the programs denote the reals 63 and 1.
  * The pixel coordinate of any extended real (the infinities included) is a real in [0, 63]; hence its floor
    and its ceiling are grid lines 0 … 63, and its offset from the lower line is a real.
  * A grid line written as a 32-bit word is read back unchanged.
  * The sum over all 4096 cells of the map weighted by the product of the two line weights equals the
    iterated linear interpolation: the line weights vanish off the two neighbouring lines, so only the (at most)
    four neighbouring cells contribute.
-/
import proofs.«139457_j5995774345370_2_alg».proof.Proof.Spec

noncomputable section

open scoped BigOperators

namespace Cert.Bilinear

open Cert.Spec Idealize.ShloMosaic

/-! ### The two float constants -/

/-- The word `0x427C0000` is sign 0, exponent 132, significand `0x7C0000`:
    `(2^23 + 8126464) · 2^(132-127-23) = 63`. -/
theorem ofBits_63 : Ideal.ofBits .f32 0x427C0000#32 = ((63 : ℝ) : EReal) := by
  simp [Ideal.ofBits, Ideal.ieee, -EReal.coe_mul]; norm_num

/-- The word `0x3F800000` is sign 0, exponent 127, significand 0: `2^23 · 2^(127-127-23) = 1`. -/
theorem ofBits_one : Ideal.ofBits .f32 0x3F800000#32 = (1 : EReal) := by
  simp [Ideal.ofBits, Ideal.ieee, -EReal.coe_mul]; norm_num

/-! ### The pixel coordinate and its two grid lines -/

/-- Clipping makes every pixel coordinate a real in `[0, 63]`: `-∞ · 63 = -∞` clips to `0`, `+∞ · 63 = +∞` clips
    to `63`, and for a real the scaling, the maximum and the minimum are those of the reals. -/
theorem pix_real (a : EReal) : ∃ p : ℝ, 0 ≤ p ∧ p ≤ 63 ∧ pix a = (p : EReal) := by
  have h63 : (0 : EReal) ≤ ((63 : ℝ) : EReal) := by exact_mod_cast (by norm_num : (0 : ℝ) ≤ 63)
  induction a using EReal.rec with
  | bot =>
    refine ⟨0, le_refl _, by norm_num, ?_⟩
    have h : (⊥ : EReal) * ((63 : ℝ) : EReal) = ⊥ := EReal.bot_mul_coe_of_pos (by norm_num)
    rw [pix, h, max_eq_left bot_le, min_eq_right h63, EReal.coe_zero]
  | coe r =>
    refine ⟨min 63 (max 0 (r * 63)), le_min (by norm_num) (le_max_left _ _), min_le_left _ _, ?_⟩
    have hmono : Monotone Real.toEReal := EReal.coe_strictMono.monotone
    rw [pix, hmono.map_min, hmono.map_max, EReal.coe_mul, EReal.coe_zero]
  | top =>
    refine ⟨63, by norm_num, le_refl _, ?_⟩
    have h : (⊤ : EReal) * ((63 : ℝ) : EReal) = ⊤ := EReal.top_mul_coe_of_pos (by norm_num)
    rw [pix, h, max_eq_right le_top, min_eq_left le_top]

/-- An integer `0 ≤ z ≤ 63`, read as a real, converts to the 32-bit word of the natural number `z`: it is its own
    integer part and lies inside the signed 32-bit range, so nothing is clamped. -/
theorem fptosi_intCast (z : ℤ) (h0 : 0 ≤ z) (h1 : z ≤ 63) :
    Ideal.fptosi 32 (((z : ℝ)) : EReal) = BitVec.ofNat 32 z.toNat := by
  have hz : (0 : ℝ) ≤ (z : ℝ) := by exact_mod_cast h0
  have hclamp : max (-((2 ^ (32 - 1) : ℕ) : ℤ)) (min (((2 ^ (32 - 1) : ℕ) : ℤ) - 1) z) = z := by
    have e : ((2 ^ (32 - 1) : ℕ) : ℤ) = 2147483648 := by norm_num
    rw [e, min_eq_right (by omega), max_eq_right (by omega)]
  rw [Ideal.fptosi, Ideal.toIntClamped_coe, if_pos hz, Int.floor_intCast, hclamp]
  conv_lhs => rw [← Int.toNat_of_nonneg h0]
  exact BitVec.ofInt_natCast 32 z.toNat

/-- A grid line `0 … 63` written as a 32-bit word has that line as its signed value. -/
theorem toInt_ofNat_line (l : Fin 64) : (BitVec.ofNat 32 l.val).toInt = (l.val : ℤ) := by
  have hl : (BitVec.ofNat 32 l.val).toNat = l.val := by
    rw [BitVec.toNat_ofNat]; exact Nat.mod_eq_of_lt (by have := l.isLt; omega)
  rw [BitVec.toInt_eq_toNat_of_lt (by rw [hl]; have := l.isLt; omega), hl]

/-- For every extended real coordinate the lower and the upper grid line are lines `0 … 63` and the offset from
    the lower line is a real. -/
theorem lo_hi_frac (a : EReal) : ∃ (l h : Fin 64) (d : ℝ),
    lo a = BitVec.ofNat 32 l.val ∧ hi a = BitVec.ofNat 32 h.val ∧ frac a = (d : EReal) := by
  obtain ⟨p, hp0, hp1, hp⟩ := pix_real a
  have hf0 : 0 ≤ ⌊p⌋ := Int.floor_nonneg.mpr hp0
  have hf1 : ⌊p⌋ ≤ 63 := by
    have : ((⌊p⌋ : ℤ) : ℝ) ≤ 63 := le_trans (Int.floor_le p) hp1
    exact_mod_cast this
  have hc0 : 0 ≤ ⌈p⌉ := Int.ceil_nonneg hp0
  have hc1 : ⌈p⌉ ≤ 63 := Int.ceil_le.mpr (by exact_mod_cast hp1)
  have hlo : lo a = BitVec.ofNat 32 ⌊p⌋.toNat := by
    rw [lo, hp, Ideal.liftRound_coe]; exact fptosi_intCast _ hf0 hf1
  have hhi : hi a = BitVec.ofNat 32 ⌈p⌉.toNat := by
    rw [hi, hp, Ideal.liftRound_coe]; exact fptosi_intCast _ hc0 hc1
  refine ⟨⟨⌊p⌋.toNat, by omega⟩, ⟨⌈p⌉.toNat, by omega⟩, p - (((lo a).toInt : ℤ) : ℝ), hlo, hhi, ?_⟩
  rw [frac, hp, EReal.coe_sub]

/-- A grid line written as a 32-bit word is read back unchanged. -/
theorem line_ofNat (l : Fin 64) : line (BitVec.ofNat 32 l.val) = l := by
  apply Fin.ext
  show (BitVec.ofNat 32 l.val).toNat % 64 = l.val
  rw [BitVec.toNat_ofNat]
  have := l.isLt
  omega

/-! ### The weighted sum over all cells -/

/-- The inclusion of the reals in the extended reals commutes with finite sums. -/
theorem coe_sum {ι : Type*} (s : Finset ι) (g : ι → ℝ) :
    ((∑ i ∈ s, g i : ℝ) : EReal) = ∑ i ∈ s, ((g i : ℝ) : EReal) := by
  classical
  induction s using Finset.induction_on with
  | empty => simp
  | insert a s ha ih => rw [Finset.sum_insert ha, Finset.sum_insert ha, EReal.coe_add, ih]

/-- The weight of a grid line, over the reals. -/
def wgtR (h l0 l1 : ℕ) (d : ℝ) : ℝ :=
  (if h = l0 then 1 - d else 0) + (if h = l1 then d else 0)

/-- Iterated linear interpolation, over the reals. -/
def bilR (f : Fin 64 → Fin 64 → ℝ) (y0 y1 x0 x1 : Fin 64) (dy dx : ℝ) : ℝ :=
  (f y0 x0 + (f y0 x1 - f y0 x0) * dx)
    + ((f y1 x0 + (f y1 x1 - f y1 x0) * dx) - (f y0 x0 + (f y0 x1 - f y0 x0) * dx)) * dy

theorem wgt_coe (h l0 l1 : ℕ) (d : ℝ) : wgt h l0 l1 (d : EReal) = ((wgtR h l0 l1 d : ℝ) : EReal) := by
  have e0 : (if h = l0 then (1 : EReal) - (d : EReal) else 0) = (((if h = l0 then 1 - d else 0 : ℝ)) : EReal) := by
    split_ifs <;> simp
  have e1 : (if h = l1 then (d : EReal) else 0) = (((if h = l1 then d else 0 : ℝ)) : EReal) := by
    split_ifs <;> simp
  unfold wgt wgtR
  rw [EReal.coe_add, e0, e1]

theorem bil_coe (f : Fin 64 → Fin 64 → ℝ) (y0 y1 x0 x1 : Fin 64) (dy dx : ℝ) :
    bil (fun h w => ((f h w : ℝ) : EReal)) y0 y1 x0 x1 (dy : EReal) (dx : EReal)
      = ((bilR f y0 y1 x0 x1 dy dx : ℝ) : EReal) := by
  unfold bil bilR
  simp only [EReal.coe_add, EReal.coe_mul, EReal.coe_sub]

/-- Cell `k = 64 h + w` runs over all pairs `(h, w)` exactly once. -/
theorem sum_cells {M : Type*} [AddCommMonoid M] (g : Fin 64 → Fin 64 → M) :
    ∑ k : Fin 4096, g ⟨k.val / 64, Nat.div_lt_of_lt_mul k.isLt⟩ ⟨k.val % 64, Nat.mod_lt _ (by decide)⟩
      = ∑ h : Fin 64, ∑ w : Fin 64, g h w := by
  rw [← Fintype.sum_prod_type']
  exact Fintype.sum_equiv (finProdFinEquiv (m := 64) (n := 64)).symm _ _ (fun _ => rfl)

/-- Against the line weights a sum over all lines keeps the two neighbouring lines only (both terms when they
    coincide). -/
theorem sum_wgtR_mul (l0 l1 : Fin 64) (d : ℝ) (F : Fin 64 → ℝ) :
    ∑ h : Fin 64, wgtR h.val l0.val l1.val d * F h = (1 - d) * F l0 + d * F l1 := by
  unfold wgtR
  simp only [add_mul, ite_mul, zero_mul, Finset.sum_add_distrib, Fin.val_inj,
    Finset.sum_ite_eq', Finset.mem_univ, if_true]

/-- The weighted sum over all cells is the iterated interpolation, over the reals. -/
theorem sum_wgtR_eq_bilR (f : Fin 64 → Fin 64 → ℝ) (y0 y1 x0 x1 : Fin 64) (dy dx : ℝ) :
    ∑ h : Fin 64, ∑ w : Fin 64, (wgtR h.val y0.val y1.val dy * wgtR w.val x0.val x1.val dx) * f h w
      = bilR f y0 y1 x0 x1 dy dx := by
  have inner : ∀ h : Fin 64,
      ∑ w : Fin 64, (wgtR h.val y0.val y1.val dy * wgtR w.val x0.val x1.val dx) * f h w
        = wgtR h.val y0.val y1.val dy * ((1 - dx) * f h x0 + dx * f h x1) := by
    intro h
    rw [← sum_wgtR_mul x0 x1 dx (f h), Finset.mul_sum]
    exact Finset.sum_congr rfl (fun w _ => mul_assoc _ _ _)
  simp only [inner]
  rw [sum_wgtR_mul y0 y1 dy (fun h => (1 - dx) * f h x0 + dx * f h x1)]
  unfold bilR
  ring

/-- The weighted sum over all 4096 cells of a real-valued map equals its bilinear interpolation. -/
theorem ksum_eq_bil (f : Fin 64 → Fin 64 → ℝ) (y0 y1 x0 x1 : Fin 64) (dy dx : ℝ) :
    ksum (fun h w => ((f h w : ℝ) : EReal)) y0 y1 x0 x1 (dy : EReal) (dx : EReal)
      = bil (fun h w => ((f h w : ℝ) : EReal)) y0 y1 x0 x1 (dy : EReal) (dx : EReal) := by
  rw [bil_coe, ← sum_wgtR_eq_bilR,
    ← sum_cells (fun h w => (wgtR h.val y0.val y1.val dy * wgtR w.val x0.val x1.val dx) * f h w),
    coe_sum]
  unfold ksum
  refine Finset.sum_congr rfl (fun k _ => ?_)
  rw [wgt_coe, wgt_coe, EReal.coe_mul, EReal.coe_mul]

end Cert.Bilinear

end
-- ==== Proof.KernelPayload.lean ====
/-
  The output block of one grid point, read at an index.

  The body builds, for each of the 512 queries `n` of the block, the row weights `Wy[h, n]` and the column weights
  `Wx[w, n]` of the 64 grid lines (a line's weight is `1 - d` where its number equals the lower line's word, plus `d`
  where it equals the upper line's word), multiplies them into `outer[64 h + w, n] = Wy[h, n] · Wx[w, n]` and
  contracts the 4096 cells against the feature copy: `out[n, c] = Σ_k outer[k, n] · s[c, k]`.
  Read at `(0, n, c)`, with the four line words of query `n` known to be grid lines, this is the weighted sum over
  all cells of the specification.
-/
import proofs.«139457_j5995774345370_2_alg».proof.Proof.KernelPieces
import proofs.«139457_j5995774345370_2_alg».proof.Proof.LibContractCols
import proofs.«139457_j5995774345370_2_alg».proof.Proof.Bilinear
import Idealize.ShloMosaic.Lib.Pipeline.Value
import Idealize.ShloMosaic.Lib.ValueLayout
import Idealize.ShloMosaic.Lib.ValueIdx

noncomputable section

open scoped BigOperators

namespace Cert.KernelIdeal.Sampled

open Cert.Spec Cert.KernelIdeal Cert.KernelIdeal.Gen Idealize.ShloMosaic Idealize.ShloMosaic.ValueIdx

/-! ### Layout operations of the body read at an index -/

section Layout
variable {α : Type}

/-- A `[64, 64, 512]` array cast to `[4096, 512]` reads, at `(k, n)`, the operand at `(k / 64, k % 64, n)`. -/
theorem shapeCast_cells_apply (x : S64x64x512.Idx → α) (h : S64x64x512.ShapeCasts S4096x512) (k : Fin 4096) (n : Fin 512) :
    shapeCast S4096x512 x h (ix2 k n)
      = x (ix3 (⟨k.val / 64, Nat.div_lt_of_lt_mul k.isLt⟩ : Fin 64) (⟨k.val % 64, Nat.mod_lt _ (by decide)⟩ : Fin 64) n) :=
  shapeCast_apply x h _ _ (by
    rw [Shape.rowMajor_val_three, Shape.rowMajor_val_two]
    show ((k.val / 64) * 64 + k.val % 64) * 512 + n.val = k.val * 512 + n.val
    omega)

/-- A `[64, 512]` array cast to `[64, 1, 512]` reads, at `(p, 0, n)`, the operand at `(p, n)`. -/
theorem shapeCast_row_apply (x : S64x512.Idx → α) (h : S64x512.ShapeCasts S64x1x512) (p : Fin 64) (n : Fin 512) :
    shapeCast S64x1x512 x h (ix3 p (0 : Fin 1) n) = x (ix2 p n) :=
  shapeCast_apply x h _ _ (by
    rw [Shape.rowMajor_val_three, Shape.rowMajor_val_two]
    show p.val * 512 + n.val = (p.val * 1 + 0) * 512 + n.val
    omega)

/-- A `[64, 1, 512]` array broadcast to `[64, 64, 512]` reads, at `(p, q, n)`, the operand at `(p, 0, n)`. -/
theorem broadcastTo_rows_apply (x : S64x1x512.Idx → α) (h : S64x1x512.Broadcasts S64x64x512) (p q : Fin 64) (n : Fin 512) :
    broadcastTo S64x64x512 x h (ix3 p q n) = x (ix3 p (0 : Fin 1) n) := by
  refine broadcastTo_apply x h (ix3 p q n) (ix3 p (0 : Fin 1) n) fun ax => ?_
  match ax with
  | ⟨0, _⟩ => rfl
  | ⟨1, _⟩ => rfl
  | ⟨2, _⟩ => rfl

/-- A `[1, 64, 512]` array broadcast to `[64, 64, 512]` reads, at `(p, q, n)`, the operand at `(0, q, n)`. -/
theorem broadcastTo_cols_apply (x : S1x64x512.Idx → α) (h : S1x64x512.Broadcasts S64x64x512) (p q : Fin 64) (n : Fin 512) :
    broadcastTo S64x64x512 x h (ix3 p q n) = x (ix3 (0 : Fin 1) q n) := by
  refine broadcastTo_apply x h (ix3 p q n) (ix3 (0 : Fin 1) q n) fun ax => ?_
  match ax with
  | ⟨0, _⟩ => rfl
  | ⟨1, _⟩ => rfl
  | ⟨2, _⟩ => rfl

/-- The row counter of a `[64, 512]` array reads its row number. -/
theorem iota_rows_apply (hI : S64x512.Iotas .tc 32 [0]) (p : Fin 64) (n : Fin 512) :
    iota .tc S64x512 32 [0] hI (ix2 p n) = BitVec.ofNat 32 p.val := by
  rw [iota_single_apply]

/-- An integer comparison of two arrays read at an index compares the two entries. -/
theorem cmpi_apply {s : Shape} {w : ℕ} (p : CmpIPredicate) (a b : IVec s w) (i : s.Idx) :
    cmpi p a b i = IntOp.cmpi p (a i) (b i) := rfl

end Layout

/-! ### A line's weight from the words -/

/-- Selecting on the equality of two line numbers written as words is selecting on the equality of the numbers. -/
theorem select_cmpi_eq_ofNat (h l : ℕ) (hh : h < 64) (hl : l < 64) (a b : EReal) :
    Scalar.select (IntOp.cmpi .eq (BitVec.ofNat 32 h) (BitVec.ofNat 32 l)) a b = if h = l then a else b := by
  have e : (IntOp.cmpi .eq (BitVec.ofNat 32 h) (BitVec.ofNat 32 l) = 1#1) ↔ h = l := by
    rw [IntOp.cmpi_eq]
    constructor
    · intro e
      have e' := congrArg BitVec.toNat e
      rw [BitVec.toNat_ofNat, BitVec.toNat_ofNat] at e'
      omega
    · rintro rfl; rfl
  exact if_congr e rfl rfl

/-- The body's weight of line `h` — `1 - d` selected where `h` is the lower line's word, plus `d` selected where it is
    the upper line's word — is the specification's weight. -/
theorem wgt_of_words (h : ℕ) (hh : h < 64) (l0 l1 : Fin 64) (d : EReal) :
    Scalar.select (IntOp.cmpi .eq (BitVec.ofNat 32 h) (BitVec.ofNat 32 l0.val))
        (Ideal.ofBits .f32 0x3F800000#32 - d) (Ideal.ofBits .f32 0x00000000#32)
      + Scalar.select (IntOp.cmpi .eq (BitVec.ofNat 32 h) (BitVec.ofNat 32 l1.val)) d (Ideal.ofBits .f32 0x00000000#32)
      = wgt h l0.val l1.val d := by
  rw [select_cmpi_eq_ofNat h _ hh l0.isLt, select_cmpi_eq_ofNat h _ hh l1.isLt, Cert.Bilinear.ofBits_one,
    Ideal.ofBits_zero_f32]
  rfl

/-! ### The payloads read at an index -/

/-- The offsets' block viewed `[1, 512]`. -/
theorem pay3_apply (x : Vec Ideal S1x1x512 .f32) (n : Fin 512) :
    k0_pay3 (F := Ideal) x (ix2 (0 : Fin 1) n) = x (ix3 (0 : Fin 1) (0 : Fin 1) n) := by
  unfold k0_pay3
  exact shapeCast_1ab_ab_apply x _ (0 : Fin 1) n

/-- A line words' block viewed `[1, 512]`. -/
theorem pay4_apply (x : Vec Ideal S1x1x512 .i32) (n : Fin 512) :
    k0_pay4 (F := Ideal) x (ix2 (0 : Fin 1) n) = x (ix3 (0 : Fin 1) (0 : Fin 1) n) := by
  unfold k0_pay4
  exact shapeCast_1ab_ab_apply x _ (0 : Fin 1) n

/-- The comparison of the line counter with the lower column line's word. -/
theorem pay6_apply (x : Vec Ideal S1x1x512 .i32) (q : Fin 64) (n : Fin 512) :
    k0_pay6 (F := Ideal) x (ix2 q n)
      = IntOp.cmpi .eq (BitVec.ofNat 32 q.val) (x (ix3 (0 : Fin 1) (0 : Fin 1) n)) := by
  unfold k0_pay6
  rw [cmpi_apply, iota_rows_apply, broadcastTo_1b_ab_apply, shapeCast_1ab_ab_apply]

/-- The row weights. -/
theorem pay5_apply (x5 : Vec Ideal S1x1x512 .f32) (x1 x2 : Vec Ideal S1x1x512 .i32) (p : Fin 64) (n : Fin 512) :
    k0_pay5 (F := Ideal) x5 x1 x2 (ix2 p n)
      = Scalar.select (IntOp.cmpi .eq (BitVec.ofNat 32 p.val) (x1 (ix3 (0 : Fin 1) (0 : Fin 1) n)))
          (Ideal.ofBits .f32 0x3F800000#32 - x5 (ix3 (0 : Fin 1) (0 : Fin 1) n)) (Ideal.ofBits .f32 0x00000000#32)
        + Scalar.select (IntOp.cmpi .eq (BitVec.ofNat 32 p.val) (x2 (ix3 (0 : Fin 1) (0 : Fin 1) n)))
          (x5 (ix3 (0 : Fin 1) (0 : Fin 1) n)) (Ideal.ofBits .f32 0x00000000#32) := by
  unfold k0_pay5
  rw [addf_apply, select_apply, select_apply, cmpi_apply, cmpi_apply, iota_rows_apply,
    broadcastTo_1b_ab_apply, broadcastTo_1b_ab_apply, broadcastTo_1b_ab_apply, broadcastTo_1b_ab_apply,
    shapeCast_self, shapeCast_self, subf_apply, shapeCast_1ab_ab_apply, shapeCast_1ab_ab_apply, shapeCast_1ab_ab_apply]
  rfl

/-- The printed dimension numbers are "columns against rows". -/
theorem dot_eq_colsRows :
    dot_S4096x512_S256x4096_S512x256_0_1_1_0_n_n = ContractCols.colsRows 512 4096 256 := rfl

/-- The output block from the payload's arguments: entry `(0, n, c)` is the sum over the 4096 cells `k = 64 h + w` of
    the row factor at `(h, n)` times the column weight at `(w, n)` times the feature copy at `(c, k)`. -/
theorem pay1_apply (v4 : IVec S64x512 32) (v8 : FVec Ideal S1x512 .f32) (v16 : IVec S1x512 32)
    (v31 : FVec Ideal S64x512 .f32) (v33 : IVec S64x512 1) (v55 : FVec Ideal S256x4096 .bf16)
    (n : Fin 512) (c : Fin 256) :
    k0_pay1 (F := Ideal) v4 v8 v16 v31 v33 v55 (ix3 (0 : Fin 1) n c)
      = ∑ k : Fin 4096,
          (v31 (ix2 (⟨k.val / 64, Nat.div_lt_of_lt_mul k.isLt⟩ : Fin 64) n)
            * (Scalar.select (v33 (ix2 (⟨k.val % 64, Nat.mod_lt _ (by decide)⟩ : Fin 64) n))
                  (Ideal.ofBits .f32 0x3F800000#32 - v8 (ix2 (0 : Fin 1) n)) (Ideal.ofBits .f32 0x00000000#32)
               + Scalar.select
                  (IntOp.cmpi .eq (v4 (ix2 (⟨k.val % 64, Nat.mod_lt _ (by decide)⟩ : Fin 64) n)) (v16 (ix2 (0 : Fin 1) n)))
                  (v8 (ix2 (0 : Fin 1) n)) (Ideal.ofBits .f32 0x00000000#32)))
          * v55 (ix2 c k) := by
  unfold k0_pay1
  rw [shapeCast_ab_1ab_apply]
  refine (ContractCols.matmul_zero_apply dot_S4096x512_S256x4096_S512x256_0_1_1_0_n_n dot_eq_colsRows none _ _ n c).trans ?_
  refine Finset.sum_congr rfl fun k _ => ?_
  rw [shapeCast_cells_apply, mulf_apply, broadcastTo_rows_apply, shapeCast_row_apply, truncf_apply,
    broadcastTo_cols_apply, shapeCast_ab_1ab_apply, truncf_apply, addf_apply, select_apply, select_apply, cmpi_apply,
    broadcastTo_1b_ab_apply, broadcastTo_1b_ab_apply, broadcastTo_1b_ab_apply, shapeCast_self, shapeCast_self, subf_apply]
  rfl

/-- THE BLOCK ENTRY: with the four line words of query `n` grid lines `y0, y1` (rows) and `z0, z1` (columns), entry
    `(0, n, c)` of the output block is the specification's weighted sum over all cells of channel `c` of the copy. -/
theorem sampled_apply (x1 x2 x3 x4 : Vec Ideal S1x1x512 .i32) (x5 x6 : Vec Ideal S1x1x512 .f32) (s : Vec Ideal S256x4096 .bf16)
    (n : Fin 512) (c : Fin 256) (y0 y1 z0 z1 : Fin 64)
    (hy0 : x1 (ix3 0 0 n) = BitVec.ofNat 32 y0.val) (hy1 : x2 (ix3 0 0 n) = BitVec.ofNat 32 y1.val)
    (hz0 : x3 (ix3 0 0 n) = BitVec.ofNat 32 z0.val) (hz1 : x4 (ix3 0 0 n) = BitVec.ofNat 32 z1.val) :
    sampled (F := Ideal) x1 x2 x3 x4 x5 x6 s (ix3 0 n c)
      = ∑ k : Fin 4096, (wgt (k.val / 64) y0.val y1.val (x5 (ix3 0 0 n)) * wgt (k.val % 64) z0.val z1.val (x6 (ix3 0 0 n)))
          * s (ix2 c k) := by
  unfold sampled
  rw [pay1_apply]
  refine Finset.sum_congr rfl fun k _ => ?_
  rw [pay5_apply, pay6_apply, pay3_apply, pay4_apply, iota_rows_apply, hy0, hy1, hz0, hz1]
  dsimp only
  rw [wgt_of_words _ (Nat.div_lt_of_lt_mul k.isLt), wgt_of_words _ (Nat.mod_lt _ (by decide))]

end Cert.KernelIdeal.Sampled

end
-- ==== Proof.KernelValue.lean ====
/-
  The array the kernel leaves in its result is the specification's, at the ideal values.

  Entry `(b, n, c)` of the array is entry `(n % 512, c)` of the block of query block `n / 512` of batch `b`. That
  block's per-query rows, read at query `n % 512`, are the words and offsets the host operations computed for query
  `n`: the lower and upper grid lines and the offset of each of its two coordinates, all of them grid lines `0 … 63`
  and a real offset. The feature copy the product reads, at `(c, k)`, is the feature map of batch `b` and channel
  `c` at cell `(k / 64, k % 64)`, a real by the precondition. So the entry is the weighted sum over all cells of
  a real-valued map, which is its bilinear interpolation.
-/
import proofs.«139457_j5995774345370_2_alg».proof.Proof.KernelArray
import proofs.«139457_j5995774345370_2_alg».proof.Proof.KernelPayload
import proofs.«139457_j5995774345370_2_alg».proof.Proof.Bilinear
import proofs.«139457_j5995774345370_2_alg».proof.Proof.Spec

noncomputable section

open scoped BigOperators

open Idealize.ShloMosaic Idealize.ShloMosaic.TcCoe Idealize.SL.Sem Idealize.ShloMosaic.ValueIdx

namespace Cert.KernelIdeal.Sampled

open Cert.Spec Cert.KernelIdeal Cert.KernelIdeal.Gen

/-- Query `n` is query `n % 512` of query block `n / 512`. -/
theorem queryRow_at {α : Type} (A : S32x1x2048.Idx → α) (b : Fin 32) (n : Fin 2048) :
    queryRow A b (qblock n) (ix3 (0 : Fin 1) (0 : Fin 1) (qwithin n)) = A (ix3 b (0 : Fin 1) n) := by
  unfold queryRow
  exact congrArg (fun t => A (ix3 b (0 : Fin 1) t))
    (Fin.ext (by show n.val / 512 * 512 + n.val % 512 = n.val; omega))

/-- The feature copy at `(c, k)` is the block's entry `(0, c, k)`: the format change is the identity on the extended
    reals and the casts keep the row-major position. -/
theorem pay2_apply (x : Vec Ideal S1x256x4096 .f32) (ch : Fin 256) (k : Fin 4096) :
    k0_pay2 (F := Ideal) x (ix2 ch k) = x (ix3 (0 : Fin 1) ch k) := by
  unfold k0_pay2
  rw [shapeCast_self, truncf_apply, shapeCast_1ab_ab_apply]

/-- THE ENTRY, over any arrays holding what the host operations compute: the lower / upper row and column lines and
    the two offsets of every query, and the flattened feature maps, all entries of which are reals. -/
theorem sampled_rows_eq_bil
    (A1 A2 A3 A4 : S32x1x2048.Idx → BitVec 32) (A5 A6 : S32x1x2048.Idx → EReal) (A7 : S32x256x4096.Idx → EReal)
    (a0 : (⟨4, ![32, 256, 64, 64]⟩ : Shape).Idx → EReal) (a1 : (⟨3, ![32, 2048, 2]⟩ : Shape).Idx → EReal)
    (hylt : ∀ (b : Fin 32) (n : Fin 2048), A1 (ix3 b 0 n) = lo (a1 (ix3 b n 1)))
    (hyrb : ∀ (b : Fin 32) (n : Fin 2048), A2 (ix3 b 0 n) = hi (a1 (ix3 b n 1)))
    (hxlt : ∀ (b : Fin 32) (n : Fin 2048), A3 (ix3 b 0 n) = lo (a1 (ix3 b n 0)))
    (hxrb : ∀ (b : Fin 32) (n : Fin 2048), A4 (ix3 b 0 n) = hi (a1 (ix3 b n 0)))
    (hdy : ∀ (b : Fin 32) (n : Fin 2048), A5 (ix3 b 0 n) = frac (a1 (ix3 b n 1)))
    (hdx : ∀ (b : Fin 32) (n : Fin 2048), A6 (ix3 b 0 n) = frac (a1 (ix3 b n 0)))
    (hfeat : ∀ (b : Fin 32) (ch : Fin 256) (k : Fin 4096), A7 (ix3 b ch k)
      = a0 (ix4 b ch ⟨k.val / 64, Nat.div_lt_of_lt_mul k.isLt⟩ ⟨k.val % 64, Nat.mod_lt _ (by decide)⟩))
    (hfin : ∀ i, ∃ r : ℝ, a0 i = (r : EReal))
    (b : Fin 32) (n : Fin 2048) (ch : Fin 256) :
    sampled (F := Ideal) (queryRow A1 b (qblock n)) (queryRow A2 b (qblock n)) (queryRow A3 b (qblock n))
        (queryRow A4 b (qblock n)) (queryRow A5 b (qblock n)) (queryRow A6 b (qblock n))
        (k0_pay2 (F := Ideal) (featRows A7 b)) (ix3 (0 : Fin 1) (qwithin n) ch)
      = bil (fun h w => a0 (ix4 b ch h w))
          (line (lo (a1 (ix3 b n 1)))) (line (hi (a1 (ix3 b n 1))))
          (line (lo (a1 (ix3 b n 0)))) (line (hi (a1 (ix3 b n 0))))
          (frac (a1 (ix3 b n 1))) (frac (a1 (ix3 b n 0))) := by
  obtain ⟨ly, uy, dy, hly, huy, hdy'⟩ := Cert.Bilinear.lo_hi_frac (a1 (ix3 b n 1))
  obtain ⟨lx, ux, dx, hlx, hux, hdx'⟩ := Cert.Bilinear.lo_hi_frac (a1 (ix3 b n 0))
  choose r hr using hfin
  have hf : (fun h w => a0 (ix4 b ch h w)) = (fun h w => (((r (ix4 b ch h w) : ℝ)) : EReal)) :=
    funext fun h => funext fun w => hr _
  rw [sampled_apply _ _ _ _ _ _ _ (qwithin n) ch ly uy lx ux
      (by rw [queryRow_at, hylt, hly]) (by rw [queryRow_at, hyrb, huy])
      (by rw [queryRow_at, hxlt, hlx]) (by rw [queryRow_at, hxrb, hux]),
    queryRow_at, queryRow_at, hdy, hdx, hdy', hdx', hly, huy, hlx, hux,
    Cert.Bilinear.line_ofNat, Cert.Bilinear.line_ofNat, Cert.Bilinear.line_ofNat, Cert.Bilinear.line_ofNat, hf,
    ← Cert.Bilinear.ksum_eq_bil]
  unfold ksum
  refine Finset.sum_congr rfl fun k _ => ?_
  rw [pay2_apply]
  show _ * A7 (ix3 b ch k) = _
  rw [hfeat, hr]

/-- THE RESULT ARRAY of the kernel is the specification's `G` of the two argument arrays. -/
theorem kernelArray_eq_G_of (m : (ℓ : Loc nD τ sig) → Buf (Elt Ideal) ℓ) (c : Dev nD)
    (a0 : (⟨4, ![32, 256, 64, 64]⟩ : Shape).Idx → EReal) (a1 : (⟨3, ![32, 2048, 2]⟩ : Shape).Idx → EReal)
    (hylt : ∀ (b : Fin 32) (n : Fin 2048), (V m c main_v21 : S32x1x2048.Idx → BitVec 32) (ix3 b 0 n) = lo (a1 (ix3 b n 1)))
    (hyrb : ∀ (b : Fin 32) (n : Fin 2048), (V m c main_v22 : S32x1x2048.Idx → BitVec 32) (ix3 b 0 n) = hi (a1 (ix3 b n 1)))
    (hxlt : ∀ (b : Fin 32) (n : Fin 2048), (V m c main_v23 : S32x1x2048.Idx → BitVec 32) (ix3 b 0 n) = lo (a1 (ix3 b n 0)))
    (hxrb : ∀ (b : Fin 32) (n : Fin 2048), (V m c main_v24 : S32x1x2048.Idx → BitVec 32) (ix3 b 0 n) = hi (a1 (ix3 b n 0)))
    (hdy : ∀ (b : Fin 32) (n : Fin 2048), (V m c main_v25 : S32x1x2048.Idx → EReal) (ix3 b 0 n) = frac (a1 (ix3 b n 1)))
    (hdx : ∀ (b : Fin 32) (n : Fin 2048), (V m c main_v26 : S32x1x2048.Idx → EReal) (ix3 b 0 n) = frac (a1 (ix3 b n 0)))
    (hfeat : ∀ (b : Fin 32) (ch : Fin 256) (k : Fin 4096), (V m c main_v27 : S32x256x4096.Idx → EReal) (ix3 b ch k)
      = a0 (ix4 b ch ⟨k.val / 64, Nat.div_lt_of_lt_mul k.isLt⟩ ⟨k.val % 64, Nat.mod_lt _ (by decide)⟩))
    (hfin : ∀ i, ∃ r : ℝ, a0 i = (r : EReal)) :
    kernelArray (F := Ideal) m c = Cert.Spec.G a0 a1 :=
  funext fun i => sampled_rows_eq_bil _ _ _ _ _ _ _ a0 a1 hylt hyrb hxlt hxrb hdy hdx hfeat hfin (i 0) (i 1) (i 2)

/-- THE RESULT ARRAY of the kernel is the specification's `G` of the two argument arrays as launched. -/
theorem kernelArray_eq_G (m : (ℓ : Loc nD τ sig) → Buf (Elt Ideal) ℓ) (c : Dev nD)
    (hylt : ∀ (b : Fin 32) (n : Fin 2048), (V m c main_v21 : S32x1x2048.Idx → BitVec 32) (ix3 b 0 n)
      = lo ((m ((c : Thread nD τ).loc main_arg1) : (⟨3, ![32, 2048, 2]⟩ : Shape).Idx → EReal) (ix3 b n 1)))
    (hyrb : ∀ (b : Fin 32) (n : Fin 2048), (V m c main_v22 : S32x1x2048.Idx → BitVec 32) (ix3 b 0 n)
      = hi ((m ((c : Thread nD τ).loc main_arg1) : (⟨3, ![32, 2048, 2]⟩ : Shape).Idx → EReal) (ix3 b n 1)))
    (hxlt : ∀ (b : Fin 32) (n : Fin 2048), (V m c main_v23 : S32x1x2048.Idx → BitVec 32) (ix3 b 0 n)
      = lo ((m ((c : Thread nD τ).loc main_arg1) : (⟨3, ![32, 2048, 2]⟩ : Shape).Idx → EReal) (ix3 b n 0)))
    (hxrb : ∀ (b : Fin 32) (n : Fin 2048), (V m c main_v24 : S32x1x2048.Idx → BitVec 32) (ix3 b 0 n)
      = hi ((m ((c : Thread nD τ).loc main_arg1) : (⟨3, ![32, 2048, 2]⟩ : Shape).Idx → EReal) (ix3 b n 0)))
    (hdy : ∀ (b : Fin 32) (n : Fin 2048), (V m c main_v25 : S32x1x2048.Idx → EReal) (ix3 b 0 n)
      = frac ((m ((c : Thread nD τ).loc main_arg1) : (⟨3, ![32, 2048, 2]⟩ : Shape).Idx → EReal) (ix3 b n 1)))
    (hdx : ∀ (b : Fin 32) (n : Fin 2048), (V m c main_v26 : S32x1x2048.Idx → EReal) (ix3 b 0 n)
      = frac ((m ((c : Thread nD τ).loc main_arg1) : (⟨3, ![32, 2048, 2]⟩ : Shape).Idx → EReal) (ix3 b n 0)))
    (hfeat : ∀ (b : Fin 32) (ch : Fin 256) (k : Fin 4096), (V m c main_v27 : S32x256x4096.Idx → EReal) (ix3 b ch k)
      = (m ((c : Thread nD τ).loc main_arg0) : (⟨4, ![32, 256, 64, 64]⟩ : Shape).Idx → EReal)
          (ix4 b ch ⟨k.val / 64, Nat.div_lt_of_lt_mul k.isLt⟩ ⟨k.val % 64, Nat.mod_lt _ (by decide)⟩))
    (hfin : ∀ i, ∃ r : ℝ,
      (m ((c : Thread nD τ).loc main_arg0) : (⟨4, ![32, 256, 64, 64]⟩ : Shape).Idx → EReal) i = (r : EReal)) :
    kernelArray (F := Ideal) m c
      = Cert.Spec.G (m ((c : Thread nD τ).loc main_arg0)) (m ((c : Thread nD τ).loc main_arg1)) :=
  kernelArray_eq_G_of m c _ _ hylt hyrb hxlt hxrb hdy hdx hfeat hfin

end Cert.KernelIdeal.Sampled

end
-- ==== Proof.LibTRefCast.lean ====
/-
  A typed reference to a tensor value's buffer carries the equation between the buffer's declared type and the value's type,
  and contents are moved to the buffer's own type and back along that equation. The two transports undo each other. A host
  operation of a module-local function is written over such references, so the value one of them leaves in its result buffer is
  wrapped in one pair of transports per operand; removing the pairs first leaves the plain composition of the operations'
  functions, which can then be compared with another spelling of the same composition without unfolding any operation.
-/
import Idealize.ShloMosaic.Lib.StableHlo

namespace Cert.Lib.TRefCast

open Idealize.ShloMosaic

variable {sig : RefSig} {Val : EltTy → Type} {T : BufTy}

/-- Contents moved to the buffer's own type and back are the contents. -/
theorem ofBuf_toBuf (x : StableHlo.TRef sig T) (v : T.Contents Val) : x.ofBuf (x.toBuf v) = v := by
  obtain ⟨r, h, h2, h3⟩ := x
  subst h
  rfl

/-- Contents of the buffer moved to the value's type and back are the contents. -/
theorem toBuf_ofBuf (x : StableHlo.TRef sig T) (v : x.ref.ty.Contents Val) : x.toBuf (x.ofBuf v) = v := by
  obtain ⟨r, h, h2, h3⟩ := x
  subst h
  rfl

end Cert.Lib.TRefCast
-- ==== Proof.KernelHost.lean ====
/-
  THE KERNEL PROGRAM'S HOST OPERATIONS, READ AT AN INDEX.

  Before the region is entered the host scales and clips the anchors to pixel coordinates, takes their floors and ceilings
  as 32-bit words and the offsets from the floors, cuts each of these `[32, 2048, 2]` arrays into its two components laid
  out as `[32, 1, 2048]`, and flattens each 64 x 64 feature map to 4096 cells. Each array the region reads is therefore a
  composition of elementwise and layout operations applied to an argument (`V_v21` … `V_v27`), and read at an index it is
  the specification's `lo`, `hi` or `frac` of one anchor coordinate (`host_ylt` … `host_dx`), or one cell of one feature map
  (`host_feat`: cell `k` of the flattened map is `(k / 64, k % 64)`).
-/
import proofs.«139457_j5995774345370_2_alg».proof.Proof.Gen.KernelIdeal.Frame
import proofs.«139457_j5995774345370_2_alg».proof.Proof.Spec
import proofs.«139457_j5995774345370_2_alg».proof.Proof.Bilinear
import proofs.«139457_j5995774345370_2_alg».proof.Proof.LibTRefCast
import Idealize.ShloMosaic.Lib.StableHlo.Run
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem Idealize.ShloMosaic.ValueIdx

namespace Cert.KernelIdeal.HostPrefix

open Cert.KernelIdeal Cert.KernelIdeal.Gen Cert.Spec

variable (m : (ℓ : Loc nD τ sig) → Buf (Elt Ideal) ℓ) (c : Dev nD)

/-! ## The arrays the host operations compute, as functions of the anchors -/

/-- The pixel coordinates of all anchors: scaled by 63, clipped below at 0 and above at 63. -/
def pixArr (a1 : FVec Ideal S32x2048x2 .f32) : FVec Ideal S32x2048x2 .f32 :=
  minimumf (broadcastInDim S32x2048x2 ![] bcast_S_S32x2048x2 (constant (F := Ideal) S_ .f32 0x427C0000#32))
    (maximumf (broadcastInDim S32x2048x2 ![] bcast_S_S32x2048x2 (constant (F := Ideal) S_ .f32 0x00000000#32))
      (mulf a1 (broadcastInDim S32x2048x2 ![] bcast_S_S32x2048x2 (constant (F := Ideal) S_ .f32 0x427C0000#32))))

/-- Their floors as words: the lower grid lines. -/
def loArr (a1 : FVec Ideal S32x2048x2 .f32) : IVec S32x2048x2 32 :=
  fptosi 32 (Host.floor (pixArr a1))

/-- Their ceilings as words: the upper grid lines. -/
def hiArr (a1 : FVec Ideal S32x2048x2 .f32) : IVec S32x2048x2 32 :=
  fptosi 32 (Host.ceil (pixArr a1))

/-- The offsets from the lower grid lines. -/
def fracArr (a1 : FVec Ideal S32x2048x2 .f32) : FVec Ideal S32x2048x2 .f32 :=
  subf (pixArr a1) (sitofp .f32 (loArr a1))

/-- Component 0 of a `[32, 2048, 2]` array, laid out as `[32, 1, 2048]`: sliced, flattened, broadcast. -/
def col0 {α : Type} (w : S32x2048x2.Idx → α) : S32x1x2048.Idx → α :=
  broadcastInDim S32x1x2048 ![0, 2] bcast_S32x2048_S32x1x2048_0_2
    (shapeCast S32x2048 (extractStridedSlice S32x2048x1 ![0, 0, 0] w slices_S32x2048x2_S32x2048x1_0_0_0) shapeCasts_S32x2048x1_S32x2048)

/-- Component 1 of a `[32, 2048, 2]` array, laid out as `[32, 1, 2048]`. -/
def col1 {α : Type} (w : S32x2048x2.Idx → α) : S32x1x2048.Idx → α :=
  broadcastInDim S32x1x2048 ![0, 2] bcast_S32x2048_S32x1x2048_0_2
    (shapeCast S32x2048 (extractStridedSlice S32x2048x1 ![0, 0, 1] w slices_S32x2048x2_S32x2048x1_0_0_1) shapeCasts_S32x2048x1_S32x2048)

/-- The feature maps with each 64 x 64 map flattened to 4096 cells. -/
def flatMaps {α : Type} (a0 : S32x256x64x64.Idx → α) : S32x256x4096.Idx → α :=
  shapeCast S32x256x4096 a0 shapeCasts_S32x256x64x64_S32x256x4096

/-! ## The arrays at an index -/

/-- The word `0x00000000` is the real number 0. -/
theorem ofBits_zero : Ideal.ofBits .f32 0x00000000#32 = (0 : EReal) := by
  simp [Ideal.ofBits, Ideal.ieee]

/-- A constant broadcast over the anchors' shape reads the constant everywhere. -/
theorem splat_apply (w : BitVec 32) (i : S32x2048x2.Idx) :
    broadcastInDim S32x2048x2 ![] bcast_S_S32x2048x2 (constant (F := Ideal) S_ .f32 w) i = Ideal.ofBits .f32 w :=
  broadcastInDim_apply _ bcast_S_S32x2048x2 _ i (fun a => a.elim0) (fun a => a.elim0)

/-- The scaled and clipped anchor is the pixel coordinate. -/
theorem pixArr_apply (a1 : FVec Ideal S32x2048x2 .f32) (i : S32x2048x2.Idx) : pixArr a1 i = pix (a1 i) := by
  unfold pixArr
  rw [minimumf_apply, maximumf_apply, mulf_apply, splat_apply, splat_apply, Cert.Bilinear.ofBits_63, ofBits_zero]
  rfl

/-- The floor of the pixel coordinate, as a word, is the lower grid line. -/
theorem loArr_apply (a1 : FVec Ideal S32x2048x2 .f32) (i : S32x2048x2.Idx) : loArr a1 i = lo (a1 i) := by
  show FloatOps.fptosi 32 (FloatOps.hostUnary .floor (pixArr a1 i)) = _
  rw [pixArr_apply]
  rfl

/-- The ceiling of the pixel coordinate, as a word, is the upper grid line. -/
theorem hiArr_apply (a1 : FVec Ideal S32x2048x2 .f32) (i : S32x2048x2.Idx) : hiArr a1 i = hi (a1 i) := by
  show FloatOps.fptosi 32 (FloatOps.hostUnary .ceil (pixArr a1 i)) = _
  rw [pixArr_apply]
  rfl

/-- The pixel coordinate minus its floor is the offset. -/
theorem fracArr_apply (a1 : FVec Ideal S32x2048x2 .f32) (i : S32x2048x2.Idx) : fracArr a1 i = frac (a1 i) := by
  show FloatOps.subf (pixArr a1 i) (FloatOps.sitofp .f32 (loArr a1 i)) = _
  rw [pixArr_apply, loArr_apply]
  rfl

/-- Component 0 laid out as `[32, 1, 2048]`, at `(b, 0, n)`: the array at `(b, n, 0)`. -/
theorem col0_apply {α : Type} (w : S32x2048x2.Idx → α) (b : Fin 32) (n : Fin 2048) :
    col0 w (ix3 b (0 : Fin 1) n) = w (ix3 b n 0) := by
  unfold col0
  rw [broadcastInDim_apply _ bcast_S32x2048_S32x1x2048_0_2 _ (ix3 b (0 : Fin 1) n) (ix2 b n) (fun a => match a with
      | ⟨0, _⟩ => by show b.val = if (32 : Nat) = 1 then 0 else b.val; rw [if_neg (by decide)]
      | ⟨1, _⟩ => by show n.val = if (2048 : Nat) = 1 then 0 else n.val; rw [if_neg (by decide)]),
    shapeCast_apply _ shapeCasts_S32x2048x1_S32x2048 (ix2 b n) (ix3 b n (0 : Fin 1))
      (by rewrite [Shape.rowMajor_val_three, Shape.rowMajor_val_two]
          show (b.val * 2048 + n.val) * 1 + 0 = b.val * 2048 + n.val; omega),
    extractStridedSlice_apply ![0, 0, 0] _ slices_S32x2048x2_S32x2048x1_0_0_0 (ix3 b n (0 : Fin 1)) (ix3 b n (0 : Fin 2))
      (fun a => match a with
        | ⟨0, _⟩ => by show b.val = 0 + b.val; omega
        | ⟨1, _⟩ => by show n.val = 0 + n.val; omega
        | ⟨2, _⟩ => rfl)]

/-- Component 1 laid out as `[32, 1, 2048]`, at `(b, 0, n)`: the array at `(b, n, 1)`. -/
theorem col1_apply {α : Type} (w : S32x2048x2.Idx → α) (b : Fin 32) (n : Fin 2048) :
    col1 w (ix3 b (0 : Fin 1) n) = w (ix3 b n 1) := by
  unfold col1
  rw [broadcastInDim_apply _ bcast_S32x2048_S32x1x2048_0_2 _ (ix3 b (0 : Fin 1) n) (ix2 b n) (fun a => match a with
      | ⟨0, _⟩ => by show b.val = if (32 : Nat) = 1 then 0 else b.val; rw [if_neg (by decide)]
      | ⟨1, _⟩ => by show n.val = if (2048 : Nat) = 1 then 0 else n.val; rw [if_neg (by decide)]),
    shapeCast_apply _ shapeCasts_S32x2048x1_S32x2048 (ix2 b n) (ix3 b n (0 : Fin 1))
      (by rewrite [Shape.rowMajor_val_three, Shape.rowMajor_val_two]
          show (b.val * 2048 + n.val) * 1 + 0 = b.val * 2048 + n.val; omega),
    extractStridedSlice_apply ![0, 0, 1] _ slices_S32x2048x2_S32x2048x1_0_0_1 (ix3 b n (0 : Fin 1)) (ix3 b n (1 : Fin 2))
      (fun a => match a with
        | ⟨0, _⟩ => by show b.val = 0 + b.val; omega
        | ⟨1, _⟩ => by show n.val = 0 + n.val; omega
        | ⟨2, _⟩ => rfl)]

/-- Cell `k` of a flattened map is cell `(k / 64, k % 64)` of the map. -/
theorem flatMaps_apply {α : Type} (a0 : S32x256x64x64.Idx → α) (b : Fin 32) (ch : Fin 256) (k : Fin 4096) :
    flatMaps a0 (ix3 b ch k)
      = a0 (ix4 b ch ⟨k.val / 64, Nat.div_lt_of_lt_mul k.isLt⟩ ⟨k.val % 64, Nat.mod_lt _ (by decide)⟩) := by
  unfold flatMaps
  refine shapeCast_apply _ shapeCasts_S32x256x64x64_S32x256x4096 _ _ ?_
  rewrite [Shape.rowMajor_val_four, Shape.rowMajor_val_three]
  have hb := b.isLt; have hc := ch.isLt; have hk := k.isLt
  show ((b.val * 256 + ch.val) * 64 + k.val / 64) * 64 + k.val % 64 = (b.val * 256 + ch.val) * 4096 + k.val
  omega

/-! ## What the host operations leave in the buffers the region reads -/

/-- The lower grid lines of the second coordinates. -/
theorem V_v21 : (V m c main_v21 : S32x1x2048.Idx → BitVec 32) = col1 (loArr (m ((c : Thread nD τ).loc main_arg1))) := by
  dsimp only [Gen.V]
  simp only [Gen.hostOps0, Gen.hostOps0_1, Gen.hostOps0_2, List.flatten_cons, List.flatten_nil, List.append_nil, List.cons_append, List.nil_append]
  after_results_simp
  rfl

/-- The upper grid lines of the second coordinates. -/
theorem V_v22 : (V m c main_v22 : S32x1x2048.Idx → BitVec 32) = col1 (hiArr (m ((c : Thread nD τ).loc main_arg1))) := by
  dsimp only [Gen.V]
  simp only [Gen.hostOps0, Gen.hostOps0_1, Gen.hostOps0_2, List.flatten_cons, List.flatten_nil, List.append_nil, List.cons_append, List.nil_append]
  after_results_simp
  rfl

/-- The lower grid lines of the first coordinates. -/
theorem V_v23 : (V m c main_v23 : S32x1x2048.Idx → BitVec 32) = col0 (loArr (m ((c : Thread nD τ).loc main_arg1))) := by
  dsimp only [Gen.V]
  simp only [Gen.hostOps0, Gen.hostOps0_1, Gen.hostOps0_2, List.flatten_cons, List.flatten_nil, List.append_nil, List.cons_append, List.nil_append]
  after_results_simp
  rfl

/-- The upper grid lines of the first coordinates. -/
theorem V_v24 : (V m c main_v24 : S32x1x2048.Idx → BitVec 32) = col0 (hiArr (m ((c : Thread nD τ).loc main_arg1))) := by
  dsimp only [Gen.V]
  simp only [Gen.hostOps0, Gen.hostOps0_1, Gen.hostOps0_2, List.flatten_cons, List.flatten_nil, List.append_nil, List.cons_append, List.nil_append]
  after_results_simp
  rfl

/-- The offsets of the second coordinates. -/
theorem V_v25 : (V m c main_v25 : S32x1x2048.Idx → EReal) = col1 (fracArr (m ((c : Thread nD τ).loc main_arg1))) := by
  dsimp only [Gen.V]
  simp only [Gen.hostOps0, Gen.hostOps0_1, Gen.hostOps0_2, List.flatten_cons, List.flatten_nil, List.append_nil, List.cons_append, List.nil_append]
  after_results_simp
  rfl

/-- The offsets of the first coordinates. -/
theorem V_v26 : (V m c main_v26 : S32x1x2048.Idx → EReal) = col0 (fracArr (m ((c : Thread nD τ).loc main_arg1))) := by
  dsimp only [Gen.V]
  simp only [Gen.hostOps0, Gen.hostOps0_1, Gen.hostOps0_2, List.flatten_cons, List.flatten_nil, List.append_nil, List.cons_append, List.nil_append]
  after_results_simp
  rfl

/-- The feature maps, flattened. -/
theorem V_v27 : (V m c main_v27 : S32x256x4096.Idx → EReal) = flatMaps (m ((c : Thread nD τ).loc main_arg0)) := by
  dsimp only [Gen.V]
  simp only [Gen.hostOps0, Gen.hostOps0_1, Gen.hostOps0_2, List.flatten_cons, List.flatten_nil, List.append_nil, List.cons_append, List.nil_append]
  after_results_simp
  rfl

/-! ## The region's operands at an index -/

/-- Operand 1 at query `n` of batch `b`: the lower grid line of the second coordinate. -/
theorem host_ylt (b : Fin 32) (n : Fin 2048) :
    (V m c main_v21 : S32x1x2048.Idx → BitVec 32) (ix3 b (0 : Fin 1) n)
      = lo ((m ((c : Thread nD τ).loc main_arg1) : S32x2048x2.Idx → EReal) (ix3 b n 1)) :=
  (congrFun (V_v21 m c) (ix3 b (0 : Fin 1) n)).trans (by rw [col1_apply, loArr_apply])

/-- Operand 2: the upper grid line of the second coordinate. -/
theorem host_yrb (b : Fin 32) (n : Fin 2048) :
    (V m c main_v22 : S32x1x2048.Idx → BitVec 32) (ix3 b (0 : Fin 1) n)
      = hi ((m ((c : Thread nD τ).loc main_arg1) : S32x2048x2.Idx → EReal) (ix3 b n 1)) :=
  (congrFun (V_v22 m c) (ix3 b (0 : Fin 1) n)).trans (by rw [col1_apply, hiArr_apply])

/-- Operand 3: the lower grid line of the first coordinate. -/
theorem host_xlt (b : Fin 32) (n : Fin 2048) :
    (V m c main_v23 : S32x1x2048.Idx → BitVec 32) (ix3 b (0 : Fin 1) n)
      = lo ((m ((c : Thread nD τ).loc main_arg1) : S32x2048x2.Idx → EReal) (ix3 b n 0)) :=
  (congrFun (V_v23 m c) (ix3 b (0 : Fin 1) n)).trans (by rw [col0_apply, loArr_apply])

/-- Operand 4: the upper grid line of the first coordinate. -/
theorem host_xrb (b : Fin 32) (n : Fin 2048) :
    (V m c main_v24 : S32x1x2048.Idx → BitVec 32) (ix3 b (0 : Fin 1) n)
      = hi ((m ((c : Thread nD τ).loc main_arg1) : S32x2048x2.Idx → EReal) (ix3 b n 0)) :=
  (congrFun (V_v24 m c) (ix3 b (0 : Fin 1) n)).trans (by rw [col0_apply, hiArr_apply])

/-- Operand 5: the offset of the second coordinate. -/
theorem host_dy (b : Fin 32) (n : Fin 2048) :
    (V m c main_v25 : S32x1x2048.Idx → EReal) (ix3 b (0 : Fin 1) n)
      = frac ((m ((c : Thread nD τ).loc main_arg1) : S32x2048x2.Idx → EReal) (ix3 b n 1)) :=
  (congrFun (V_v25 m c) (ix3 b (0 : Fin 1) n)).trans (by rw [col1_apply, fracArr_apply])

/-- Operand 6: the offset of the first coordinate. -/
theorem host_dx (b : Fin 32) (n : Fin 2048) :
    (V m c main_v26 : S32x1x2048.Idx → EReal) (ix3 b (0 : Fin 1) n)
      = frac ((m ((c : Thread nD τ).loc main_arg1) : S32x2048x2.Idx → EReal) (ix3 b n 0)) :=
  (congrFun (V_v26 m c) (ix3 b (0 : Fin 1) n)).trans (by rw [col0_apply, fracArr_apply])

/-- Operand 0 at cell `k` of channel `ch` of batch `b`: cell `(k / 64, k % 64)` of that feature map. -/
theorem host_feat (b : Fin 32) (ch : Fin 256) (k : Fin 4096) :
    (V m c main_v27 : S32x256x4096.Idx → EReal) (ix3 b ch k)
      = (m ((c : Thread nD τ).loc main_arg0) : S32x256x64x64.Idx → EReal)
          (ix4 b ch ⟨k.val / 64, Nat.div_lt_of_lt_mul k.isLt⟩ ⟨k.val % 64, Nat.mod_lt _ (by decide)⟩) :=
  (congrFun (V_v27 m c) (ix3 b ch k)).trans (flatMaps_apply _ b ch k)

end Cert.KernelIdeal.HostPrefix

end
-- ==== Proof.LibFinite.lean ====
/-
  General facts about finiteness on the extended reals, for certificates whose precondition says that every
  float input is finite and whose algebra (distributivity, cancellation) needs it.

  * `coe_sum`: the inclusion of the reals into the extended reals commutes with finite sums, so an identity
    between sums of finite entries can be proved over the reals and carried back.
  * `ofBool_one`, `inf_word`, `finite_of_abs_lt`: one element of a printed `|x| < +∞` test, read back — the
    f32 word `0x7F800000` is `+∞`, `|x|` is `max x (-x)`, and that is below `+∞` only when `x` is a real number.
-/
import Idealize.ShloMosaic.PureOps.Ideal
import Idealize.ShloMosaic.PureOps.Ideal.Laws

namespace Cert.LibFinite

open Idealize.ShloMosaic

/-- The inclusion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A Boolean read as a one-bit word is the word 1 exactly when it is true. -/
theorem ofBool_one (b : Bool) : BitVec.ofBool b = 1#1 ↔ b = true := by cases b <;> decide

/-- The f32 word `0x7F800000` is `+∞`. -/
theorem inf_word : Ideal.ofBits .f32 0x7F800000#32 = ⊤ := by simp [Ideal.ofBits, Ideal.ieee]

/-- An extended real whose absolute value compares below `+∞` is neither infinity: `|x| = max x (-x)` is `+∞` at
    both. (The host's and the kernel's absolute value are one function on the extended reals.) -/
theorem finite_of_abs_lt (x : EReal)
    (h : FloatOps.cmpf (F := Ideal) (φ := .f32) .olt (FloatOps.hostAbsf (F := Ideal) (φ := .f32) x)
      (Ideal.ofBits .f32 0x7F800000#32) = 1#1) : x ≠ ⊤ ∧ x ≠ ⊥ := by
  rw [Ideal.hostAbsf_def, Ideal.absf_def, Ideal.cmpf_def, inf_word] at h
  have h2 : BitVec.ofBool (decide (max x (-x) < ⊤)) = 1#1 := h
  have h' : max x (-x) < ⊤ := of_decide_eq_true ((ofBool_one _).1 h2)
  induction x using EReal.rec with
  | bot => simp at h'
  | top => simp at h'
  | coe r => exact ⟨EReal.coe_ne_top r, EReal.coe_ne_bot r⟩

end Cert.LibFinite
-- ==== Proof.Finite.lean ====
/-
  From the precondition "every input entry has absolute value below +∞" to "every entry of the feature map is a
  real number".

  The precondition is the conjunction of two all-entries tests, one per input. The conjunction being 1 makes each
  test 1; a reduction by "and" over all axes being 1 makes every compared entry 1; and one entry's test `|x| < +∞`
  holds only when `x` is neither infinity, that is, a real.
-/
import proofs.«139457_j5995774345370_2_alg».proof.Defs
import proofs.«139457_j5995774345370_2_alg».proof.Proof.LibFinite
import Idealize.ShloMosaic.Lib.ReduceAll
import Idealize.ShloMosaic.Lib.ValueIdx

namespace Cert.Finite

open Idealize.ShloMosaic

/-- The shape of a scalar has exactly one index. -/
instance : Subsingleton Cert.Pre_finite_inputs.S_.Idx := ⟨fun a b => funext fun d => d.elim0⟩

/-- An extended real that is neither infinity is a real. -/
theorem exists_real_of_ne {x : EReal} (ht : x ≠ ⊤) (hb : x ≠ ⊥) : ∃ r : ℝ, x = (r : EReal) := by
  induction x using EReal.rec with
  | bot => exact absurd rfl hb
  | coe r => exact ⟨r, rfl⟩
  | top => exact absurd rfl ht

/-- Under the precondition every entry of the feature-map argument is a real. -/
theorem arg0_real [hF : Cert.Pre_finite_inputs.Facts]
    (x0 : Cert.Pre_finite_inputs.S32x256x64x64.Idx → EReal) (x1 : Cert.Pre_finite_inputs.S32x2048x2.Idx → EReal)
    (h : Cert.Pre_finite_inputs.fn (F := Ideal) x0 x1 = (fun _ => 1#1)) :
    ∀ i, ∃ r : ℝ, x0 i = (r : EReal) := by
  intro i
  have h0 := congrFun h ValueIdx.ix0
  dsimp only [Cert.Pre_finite_inputs.fn] at h0
  obtain ⟨ha, _⟩ := IntOp.andi_eq_one.1 h0
  have hi := Host.reduce_andi_all _ _ _ _ _ ha i
  obtain ⟨ht, hb⟩ := Cert.LibFinite.finite_of_abs_lt (x0 i) hi
  exact exists_real_of_ne ht hb

/-- Under the precondition every entry of the coordinate argument is a real. -/
theorem arg1_real [hF : Cert.Pre_finite_inputs.Facts]
    (x0 : Cert.Pre_finite_inputs.S32x256x64x64.Idx → EReal) (x1 : Cert.Pre_finite_inputs.S32x2048x2.Idx → EReal)
    (h : Cert.Pre_finite_inputs.fn (F := Ideal) x0 x1 = (fun _ => 1#1)) :
    ∀ i, ∃ r : ℝ, x1 i = (r : EReal) := by
  intro i
  have h0 := congrFun h ValueIdx.ix0
  dsimp only [Cert.Pre_finite_inputs.fn] at h0
  obtain ⟨_, hb'⟩ := IntOp.andi_eq_one.1 h0
  have hi := Host.reduce_andi_all _ _ _ _ _ hb' i
  obtain ⟨ht, hb⟩ := Cert.LibFinite.finite_of_abs_lt (x1 i) hi
  exact exists_real_of_ne ht hb

end Cert.Finite
-- ==== Proof.LibGatherBatched.lean ====
/-
  A BATCHED `stablehlo.gather` READ AT AN INDEX: what `jnp.take_along_axis(x, idx[:, None, :], axis=2)` of an operand
  `x : [B, C, N]` at an integer array `idx : [B, M]` lowers to — `lax.gather` with offset_dims `[1]`, collapsed_slice_dims
  `[2]`, operand_batching_dims `[0]`, start_indices_batching_dims `[0]`, start_index_map `[2]`, index_vector_dim 2 and
  slice_sizes `[1, C, 1]` over the indices as `[B, M, 1]`. Result element `(b, c, m)` is `x` at batch `b`, row `c` and the
  column `idx[b, m, 0]` read as a signed integer and clamped into `[0, N − 1]` (`gather_takeAlong_apply`): the batch
  coordinate is shared by the operand and the indices, the row is the result's offset coordinate, and only the last
  operand axis is addressed by the start index.
-/
import Idealize.ShloMosaic.Lib.ValueIdx

noncomputable section

namespace Idealize.ShloMosaic.ValueIdx

open Idealize.ShloMosaic

section TakeAlong
variable {α : Type}

/-- Those dimension numbers for an operand `[B, C, N]`, start indices `[B, M, 1]` and result `[B, C, M]`; their conditions
    `wf` are decided on a program's literal shapes. -/
abbrev takeAlongDims (B C N M : Nat)
    (wf : GatherDims.WF ⟨3, ![B, C, N]⟩ ⟨3, ![B, M, 1]⟩ ⟨3, ![B, C, M]⟩ [1] [2] [0] [2] [0] 2 ![1, C, 1]) :
    GatherDims ⟨3, ![B, C, N]⟩ ⟨3, ![B, M, 1]⟩ ⟨3, ![B, C, M]⟩ where
  offsetDims := [1]
  collapsedSliceDims := [2]
  operandBatchingDims := [0]
  startIndicesBatchingDims := [0]
  startIndexMap := [2]
  indexVectorDim := 2
  sliceSizes := ![1, C, 1]
  wf := wf

/-- THE BATCHED GATHER READ AT `(b, c, m)`: the operand at batch `b`, row `c`, and the column `idx[b, m, 0]` read signed
    and clamped into `[0, N − 1]`. -/
theorem gather_takeAlong_apply {B C N M w : Nat} (hN : 0 < N)
    (wf : GatherDims.WF ⟨3, ![B, C, N]⟩ ⟨3, ![B, M, 1]⟩ ⟨3, ![B, C, M]⟩ [1] [2] [0] [2] [0] 2 ![1, C, 1])
    (x : (⟨3, ![B, C, N]⟩ : Shape).Idx → α) (idx : IVec ⟨3, ![B, M, 1]⟩ w) (b : Fin B) (c : Fin C) (m : Fin M) :
    Host.gather (takeAlongDims B C N M wf) x idx (ix3 b c m)
      = x (ix3 b c ⟨min (idx (ix3 b m (0 : Fin 1))).toInt.toNat (N - 1), by omega⟩) := by
  unfold Host.gather
  congr 1
  funext a
  refine Fin.ext ?_
  have m0 : ((0 : Fin 3)) ∈ ([0] : List (Fin 3)) := List.mem_singleton.mpr rfl
  have m2 : ((2 : Fin 3)) ∈ ([2] : List (Fin 3)) := List.mem_singleton.mpr rfl
  have n10 : ((1 : Fin 3)) ∉ ([0] : List (Fin 3)) := by decide
  have n12 : ((1 : Fin 3)) ∉ ([2] : List (Fin 3)) := by decide
  have n20 : ((2 : Fin 3)) ∉ ([0] : List (Fin 3)) := by decide
  -- the batching axis: no start, no offset; the batch coordinate is the result's
  have h0 : (takeAlongDims B C N M wf).start (ix3 b c m) idx (0 : Fin 3)
      + (takeAlongDims B C N M wf).batchCoord (ix3 b c m) (0 : Fin 3)
      + (takeAlongDims B C N M wf).offCoord (ix3 b c m) (0 : Fin 3) = b.val := by
    have hb : (0 : Fin 3) ∈ (takeAlongDims B C N M wf).operandBatchingDims := m0
    rw [GatherDims.start_batching _ _ _ _ hb,
      GatherDims.offCoord_eq_zero _ _ _ (fun h => ((GatherDims.mem_sKept _ _).mp h).2 hb)]
    unfold GatherDims.batchCoord
    rw [dif_pos hb, Nat.zero_add, Nat.add_zero]
    rfl
  -- the kept axis: no start, no batch coordinate; the offset coordinate is the result's
  have h1 : (takeAlongDims B C N M wf).start (ix3 b c m) idx (1 : Fin 3)
      + (takeAlongDims B C N M wf).batchCoord (ix3 b c m) (1 : Fin 3)
      + (takeAlongDims B C N M wf).offCoord (ix3 b c m) (1 : Fin 3) = c.val := by
    have hnb : (1 : Fin 3) ∉ (takeAlongDims B C N M wf).operandBatchingDims := n10
    have hns : (1 : Fin 3) ∉ (takeAlongDims B C N M wf).startIndexMap := n12
    have hk : (1 : Fin 3) ∈ (takeAlongDims B C N M wf).sKept :=
      (GatherDims.mem_sKept _ _).mpr ⟨n12, hnb⟩
    rw [GatherDims.batchCoord_eq_zero _ _ _ hnb]
    unfold GatherDims.start GatherDims.offCoord
    rw [dif_neg hns, dif_pos hk, Nat.add_zero, Nat.zero_add]
    rfl
  -- the collapsed axis: the start index, clamped; no batch coordinate, no offset
  have h2 : (takeAlongDims B C N M wf).start (ix3 b c m) idx (2 : Fin 3)
      + (takeAlongDims B C N M wf).batchCoord (ix3 b c m) (2 : Fin 3)
      + (takeAlongDims B C N M wf).offCoord (ix3 b c m) (2 : Fin 3)
      = min (idx (ix3 b m (0 : Fin 1))).toInt.toNat (N - 1) := by
    have hnb : (2 : Fin 3) ∉ (takeAlongDims B C N M wf).operandBatchingDims := n20
    have hs : (2 : Fin 3) ∈ (takeAlongDims B C N M wf).startIndexMap := m2
    have hc : (2 : Fin 3) ∈ (takeAlongDims B C N M wf).collapsedSliceDims := m2
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hs]
    have hsi : (takeAlongDims B C N M wf).siIdx (ix3 b c m)
        ⟨List.idxOf (2 : Fin 3) (takeAlongDims B C N M wf).startIndexMap,
          List.idxOf_lt_length_iff.2 hs⟩ = ix3 b m (0 : Fin 1) := by
      funext e; refine Fin.ext ?_
      match e with
      | ⟨0, _⟩ => rfl
      | ⟨1, _⟩ => rfl
      | ⟨2, _⟩ => rfl
    rw [hsi]
    rfl
  show (takeAlongDims B C N M wf).start (ix3 b c m) idx a + (takeAlongDims B C N M wf).batchCoord (ix3 b c m) a
    + (takeAlongDims B C N M wf).offCoord (ix3 b c m) a = _
  match a with
  | ⟨0, _⟩ => exact h0
  | ⟨1, _⟩ => exact h1
  | ⟨2, _⟩ => exact h2

end TakeAlong

end Idealize.ShloMosaic.ValueIdx

end
-- ==== Proof.RefWords.lean ====
/-
  Words and a unit-axis fold: the index arithmetic of a gather along the flattened 64 x 64 map.

  A cell `(y, x)` of the map, `y, x < 64`, has the row-major position `k = 64 y + x < 4096`. Computed on 32-bit words
  the position does not wrap (`cellWord`), reads back signed as `k` (`toInt_ofNat_small`), is not negative, so the
  wrap-around of a negative index leaves it alone (`normalise_small`), lies in `[0, 4095]`, so the in-bounds test is
  true (`inBounds_small`), and the clamp into `[0, 4095]` is the identity on it (`clamp_small`). A reduction over an
  axis of extent one combines the one element on that axis with the initial value (`reduce_unit_last`).
-/
import Idealize.ShloMosaic.Lib.ValueIdx
import Idealize.ShloMosaic.Lib.Affine
import Idealize.ShloMosaic.PureOps.Reduce

noncomputable section

namespace Cert.RefValue

open Idealize.ShloMosaic Idealize.ShloMosaic.ValueIdx

/-- A natural number below 4096 written as a 32-bit word reads back, signed, as itself. -/
theorem toInt_ofNat_small (k : Nat) (hk : k < 4096) : (BitVec.ofNat 32 k).toInt = (k : Int) := by
  rw [BitVec.toInt_eq_toNat_cond, BitVec.toNat_ofNat]
  have hm : k % 2 ^ 32 = k := Nat.mod_eq_of_lt (by omega)
  rw [hm, if_pos (by omega)]

/-- The row-major position `64 y + x` of cell `(y, x)`, computed on 32-bit words, is the word of that number. -/
theorem cellWord (y x : Nat) :
    IntOp.addi (IntOp.muli (BitVec.ofNat 32 y) 64#32) (BitVec.ofNat 32 x) = BitVec.ofNat 32 (y * 64 + x) := by
  unfold IntOp.addi IntOp.muli
  rw [show (64#32 : BitVec 32) = BitVec.ofNat 32 64 from rfl, ← BitVec.ofNat_mul, ← BitVec.ofNat_add]

/-- A position below 4096 is not negative: the wrap-around `k < 0 ? k + 4096 : k` leaves it alone. -/
theorem normalise_small (k : Nat) (hk : k < 4096) :
    Scalar.select (IntOp.cmpi .slt (BitVec.ofNat 32 k) 0#32) (IntOp.addi (BitVec.ofNat 32 k) 4096#32) (BitVec.ofNat 32 k)
      = BitVec.ofNat 32 k := by
  have h : IntOp.cmpi .slt (BitVec.ofNat 32 k) 0#32 = 0#1 := eq_zero_of_ne_one (fun h1 => by
    rw [IntOp.cmpi_slt, toInt_ofNat_small k hk] at h1
    have h0 : (0#32 : BitVec 32).toInt = 0 := rfl
    omega)
  rw [h, select_zero]

/-- A position below 4096 passes the in-bounds test `0 ≤ k ∧ k ≤ 4095`. -/
theorem inBounds_small (k : Nat) (hk : k < 4096) :
    IntOp.andi (IntOp.cmpi .sge (BitVec.ofNat 32 k) 0#32) (IntOp.cmpi .sle (BitVec.ofNat 32 k) 4095#32) = 1#1 := by
  have h0 : (0#32 : BitVec 32).toInt = 0 := rfl
  have h1 : (4095#32 : BitVec 32).toInt = 4095 := rfl
  refine IntOp.andi_eq_one.mpr ⟨IntOp.cmpi_sge.mpr ?_, IntOp.cmpi_sle.mpr ?_⟩
  · rw [toInt_ofNat_small k hk, h0]; omega
  · rw [toInt_ofNat_small k hk, h1]; omega

/-- Clamping a position below 4096 into `[0, 4095]` gives it back. -/
theorem clamp_small (k : Nat) (hk : k < 4096) : min (BitVec.ofNat 32 k).toInt.toNat (4096 - 1) = k := by
  rw [toInt_ofNat_small k hk, Int.toNat_natCast]
  omega

/-- A fold over the one-element index set `Fin 1` combines the one element with the initial value. -/
theorem fold_fin_one {α : Type} (f : α → α → α) [Std.Commutative f] [Std.Associative f] (v : α) (g : Fin 1 → α) :
    (Finset.univ : Finset (Fin 1)).fold f v g = f (g 0) v := by
  rw [Finset.univ_unique, Finset.fold_singleton]
  rfl

/-- A reduction of a `[B, N, 1]` array over its last axis, whose extent is one, by an associative and commutative
    operation: at `(b, n)` the one element `x[b, n, 0]` combined with the initial value. -/
theorem reduce_unit_last {α : Type} {B N : Nat} (f : α → α → α) [Std.Commutative f] [Std.Associative f]
    (x : (⟨3, ![B, N, 1]⟩ : Shape).Idx → α) (init : (⟨0, ![]⟩ : Shape).Idx → α)
    (h' : (⟨3, ![B, N, 1]⟩ : Shape).ReducesTo [2] ⟨2, ![B, N]⟩)
    (h : (⟨3, ![B, N, 1]⟩ : Shape).Reduces [2] ⟨2, ![B, N]⟩)
    (hu : 0 < (⟨0, ![]⟩ : Shape).numel) (b : Fin B) (n : Fin N) :
    Host.reduce f x init h' hu (ix2 b n) = f (x (ix3 b n (0 : Fin 1))) (init ix0) := by
  rw [Host.reduce_eq_fold_single f x init h' h hu]
  refine (fold_fin_one f (init (Shape.Idx.first hu)) (x ∘ h.lift (ix2 b n))).trans ?_
  have hl : h.lift (ix2 b n) (0 : Fin 1) = ix3 b n (0 : Fin 1) := by
    funext c; refine Fin.ext ?_
    match c with
    | ⟨0, _⟩ => rfl
    | ⟨1, _⟩ => rfl
    | ⟨2, _⟩ => rfl
  show f (x (h.lift (ix2 b n) (0 : Fin 1))) (init (Shape.Idx.first hu)) = _
  rw [hl, eq_ix0 (Shape.Idx.first hu)]

end Cert.RefValue

end
-- ==== Proof.RefValue.lean ====
/-
  THE REFERENCE PROGRAM READ AT AN INDEX IS THE SPECIFICATION `Cert.Spec.G`.

  The reference scales and clips the anchors to pixel coordinates (`pix`), takes their floor and ceiling as 32-bit words
  (`lo`, `hi`) and the offset from the floor (`frac`); for each of the four corners `(y, x)` of the cell around a query it
  forms the row-major position `64 y + x` and gathers, per batch and channel, the flattened map at that position; and it
  interpolates the four gathered values, first along `x`, then along `y`.

  Each corner's grid lines are below 64, so its position is below 4096: the gather's wrap-around of negative
  positions, its in-bounds mask and the clamp of the start index are all the identity on it, and position `k` of the
  flattened map is cell `(k / 64, k % 64) = (y, x)`. What is left is the interpolation formula `bil` itself.
-/
import proofs.«139457_j5995774345370_2_alg».proof.Proof.RefRead
import proofs.«139457_j5995774345370_2_alg».proof.Proof.Spec
import proofs.«139457_j5995774345370_2_alg».proof.Proof.LibGatherBatched
import proofs.«139457_j5995774345370_2_alg».proof.Proof.RefWords

noncomputable section

namespace Cert.RefValue

open Cert.Spec Idealize.ShloMosaic Idealize.ShloMosaic.ValueIdx
open Cert.ReferenceIdeal Cert.ReferenceIdeal.Gen Cert.ReferenceIdeal.ReadP

/-! ## The anchors: pixel coordinate, grid lines, offset -/

section Anchors
variable (h63 : Ideal.ofBits .f32 0x427C0000#32 = ((63 : ℝ) : EReal))
variable (x1 : (⟨S32x2048x2, .f32⟩ : BufTy).Contents (Elt Ideal))
include h63

/-- The clipped, scaled anchor is the pixel coordinate: the clip's integer bounds 0 and 63 convert exactly. -/
theorem pix_apply (i : S32x2048x2.Idx) : val_main_v2 (F := Ideal) x1 i = pix (x1 i) := by
  rw [val_main_v2_apply, val_main_call0_v4_apply, val_main_call0_v3_apply, val_main_c_0_apply,
    val_main_call0_v2_apply, val_main_call0_v1_apply, val_main_call0_v0_apply, val_main_c_apply,
    val_main_v1_apply, val_main_v0_apply, val_main_cst_apply]
  have e63 : FloatOps.sitofp (F := Ideal) .f32 (63#32 : BitVec 32) = ((63 : ℝ) : EReal) := by
    show ((((63#32 : BitVec 32).toInt : ℤ) : ℝ) : EReal) = _
    rw [show (63#32 : BitVec 32).toInt = 63 from rfl]; norm_num
  have e0 : FloatOps.sitofp (F := Ideal) .f32 (0#32 : BitVec 32) = (0 : EReal) := by
    show ((((0#32 : BitVec 32).toInt : ℤ) : ℝ) : EReal) = _
    rw [show (0#32 : BitVec 32).toInt = 0 from rfl]; norm_num
  rw [e63, e0]
  simp only [Ideal.minimumf_def, Ideal.maximumf_def, Ideal.mulf_def, Ideal.ofBits_def, h63]
  rfl

/-- The floor of the pixel coordinate, converted to a word, is the lower grid line. -/
theorem lo_apply (i : S32x2048x2.Idx) : val_main_v4 (F := Ideal) x1 i = lo (x1 i) := by
  rw [val_main_v4_apply, val_main_v3_apply, pix_apply h63 x1]
  rfl

/-- The ceiling of the pixel coordinate, converted to a word, is the upper grid line. -/
theorem hi_apply (i : S32x2048x2.Idx) : val_main_v6 (F := Ideal) x1 i = hi (x1 i) := by
  rw [val_main_v6_apply, val_main_v5_apply, pix_apply h63 x1]
  rfl

/-- The pixel coordinate minus its floor is the offset. -/
theorem frac_apply (i : S32x2048x2.Idx) : val_main_v41 (F := Ideal) x1 i = frac (x1 i) := by
  rw [val_main_v41_apply, val_main_v40_apply, pix_apply h63 x1, lo_apply h63 x1]
  rfl

/-- Component 0 of a sliced and flattened word array at `(b, n)` reads the anchor `(b, n, 0)` … -/
theorem xlo_apply (b : Fin 32) (n : Fin 2048) :
    val_main_v8 (F := Ideal) x1 (ix2 b n) = lo (x1 (ix3 b n 0)) := by
  rw [val_main_v8_apply, val_main_v7_apply, lo_apply h63 x1]
  congr 2
  funext a; refine Fin.ext ?_
  have hb := b.isLt; have hn := n.isLt
  match a with
  | ⟨0, _⟩ => show (b.val * 2048 + n.val) / 2048 = b.val; omega
  | ⟨1, _⟩ => show (b.val * 2048 + n.val) / 1 % 2048 = n.val; omega
  | ⟨2, _⟩ => rfl

/-- … and component 1 the anchor `(b, n, 1)`: the lower lines … -/
theorem ylo_apply (b : Fin 32) (n : Fin 2048) :
    val_main_v10 (F := Ideal) x1 (ix2 b n) = lo (x1 (ix3 b n 1)) := by
  rw [val_main_v10_apply, val_main_v9_apply, lo_apply h63 x1]
  congr 2
  funext a; refine Fin.ext ?_
  have hb := b.isLt; have hn := n.isLt
  match a with
  | ⟨0, _⟩ => show (b.val * 2048 + n.val) / 2048 = b.val; omega
  | ⟨1, _⟩ => show (b.val * 2048 + n.val) / 1 % 2048 = n.val; omega
  | ⟨2, _⟩ => rfl

/-- … and likewise the upper lines. -/
theorem xhi_apply (b : Fin 32) (n : Fin 2048) :
    val_main_v12 (F := Ideal) x1 (ix2 b n) = hi (x1 (ix3 b n 0)) := by
  rw [val_main_v12_apply, val_main_v11_apply, hi_apply h63 x1]
  congr 2
  funext a; refine Fin.ext ?_
  have hb := b.isLt; have hn := n.isLt
  match a with
  | ⟨0, _⟩ => show (b.val * 2048 + n.val) / 2048 = b.val; omega
  | ⟨1, _⟩ => show (b.val * 2048 + n.val) / 1 % 2048 = n.val; omega
  | ⟨2, _⟩ => rfl

theorem yhi_apply (b : Fin 32) (n : Fin 2048) :
    val_main_v14 (F := Ideal) x1 (ix2 b n) = hi (x1 (ix3 b n 1)) := by
  rw [val_main_v14_apply, val_main_v13_apply, hi_apply h63 x1]
  congr 2
  funext a; refine Fin.ext ?_
  have hb := b.isLt; have hn := n.isLt
  match a with
  | ⟨0, _⟩ => show (b.val * 2048 + n.val) / 2048 = b.val; omega
  | ⟨1, _⟩ => show (b.val * 2048 + n.val) / 1 % 2048 = n.val; omega
  | ⟨2, _⟩ => rfl

/-- The offsets broadcast along the channels: `dx` is the offset of component 0 … -/
theorem dx_apply (b : Fin 32) (n : Fin 2048) (c : Fin 256) :
    val_main_v44 (F := Ideal) x1 (ix3 b n c) = frac (x1 (ix3 b n 0)) := by
  rw [val_main_v44_apply, val_main_v43_apply, frac_apply h63 x1]
  congr 2
  funext a; refine Fin.ext ?_
  match a with
  | ⟨0, _⟩ => rfl
  | ⟨1, _⟩ => rfl
  | ⟨2, _⟩ => rfl

/-- … in both places the program slices it out … -/
theorem dx'_apply (b : Fin 32) (n : Fin 2048) (c : Fin 256) :
    val_main_v49 (F := Ideal) x1 (ix3 b n c) = frac (x1 (ix3 b n 0)) := by
  rw [val_main_v49_apply, val_main_v48_apply, frac_apply h63 x1]
  congr 2
  funext a; refine Fin.ext ?_
  match a with
  | ⟨0, _⟩ => rfl
  | ⟨1, _⟩ => rfl
  | ⟨2, _⟩ => rfl

/-- … and `dy` the offset of component 1. -/
theorem dy_apply (b : Fin 32) (n : Fin 2048) (c : Fin 256) :
    val_main_v54 (F := Ideal) x1 (ix3 b n c) = frac (x1 (ix3 b n 1)) := by
  rw [val_main_v54_apply, val_main_v53_apply, frac_apply h63 x1]
  congr 2
  funext a; refine Fin.ext ?_
  match a with
  | ⟨0, _⟩ => rfl
  | ⟨1, _⟩ => rfl
  | ⟨2, _⟩ => rfl

/-- The position word of the corner (lower row, lower column) at `(b, n)`: `64 y + x` on words. -/
theorem w1_apply (b : Fin 32) (n : Fin 2048) :
    val_main_v19 (F := Ideal) x1 (ix3 b (0 : Fin 1) n)
      = IntOp.addi (IntOp.muli (lo (x1 (ix3 b n 1))) 64#32) (lo (x1 (ix3 b n 0))) := by
  rw [val_main_v19_apply, val_main_v18_apply, val_main_v17_apply, val_main_v16_apply, val_main_c_1_apply]
  have hi : idx_main_v19 (ix3 b (0 : Fin 1) n) = ix2 b n := by
    funext a; refine Fin.ext ?_
    match a with
    | ⟨0, _⟩ => rfl
    | ⟨1, _⟩ => rfl
  rw [hi, ylo_apply h63 x1, xlo_apply h63 x1]

/-- The position word of the corner (upper row, upper column) at `(b, n)`: `64 y + x` on words. -/
theorem w2_apply (b : Fin 32) (n : Fin 2048) :
    val_main_v25 (F := Ideal) x1 (ix3 b (0 : Fin 1) n)
      = IntOp.addi (IntOp.muli (hi (x1 (ix3 b n 1))) 64#32) (hi (x1 (ix3 b n 0))) := by
  rw [val_main_v25_apply, val_main_v24_apply, val_main_v23_apply, val_main_v22_apply, val_main_c_2_apply]
  have hi : idx_main_v25 (ix3 b (0 : Fin 1) n) = ix2 b n := by
    funext a; refine Fin.ext ?_
    match a with
    | ⟨0, _⟩ => rfl
    | ⟨1, _⟩ => rfl
  rw [hi, yhi_apply h63 x1, xhi_apply h63 x1]

/-- The position word of the corner (upper row, lower column) at `(b, n)`: `64 y + x` on words. -/
theorem w3_apply (b : Fin 32) (n : Fin 2048) :
    val_main_v31 (F := Ideal) x1 (ix3 b (0 : Fin 1) n)
      = IntOp.addi (IntOp.muli (hi (x1 (ix3 b n 1))) 64#32) (lo (x1 (ix3 b n 0))) := by
  rw [val_main_v31_apply, val_main_v30_apply, val_main_v29_apply, val_main_v28_apply, val_main_c_3_apply]
  have hi : idx_main_v31 (ix3 b (0 : Fin 1) n) = ix2 b n := by
    funext a; refine Fin.ext ?_
    match a with
    | ⟨0, _⟩ => rfl
    | ⟨1, _⟩ => rfl
  rw [hi, yhi_apply h63 x1, xlo_apply h63 x1]

/-- The position word of the corner (lower row, upper column) at `(b, n)`: `64 y + x` on words. -/
theorem w4_apply (b : Fin 32) (n : Fin 2048) :
    val_main_v37 (F := Ideal) x1 (ix3 b (0 : Fin 1) n)
      = IntOp.addi (IntOp.muli (lo (x1 (ix3 b n 1))) 64#32) (hi (x1 (ix3 b n 0))) := by
  rw [val_main_v37_apply, val_main_v36_apply, val_main_v35_apply, val_main_v34_apply, val_main_c_4_apply]
  have hi : idx_main_v37 (ix3 b (0 : Fin 1) n) = ix2 b n := by
    funext a; refine Fin.ext ?_
    match a with
    | ⟨0, _⟩ => rfl
    | ⟨1, _⟩ => rfl
  rw [hi, ylo_apply h63 x1, xhi_apply h63 x1]

end Anchors

/-! ## The flattened map, and one gather along it -/

section Take
variable (x0 : (⟨S32x256x64x64, .f32⟩ : BufTy).Contents (Elt Ideal))
variable (x1 : (⟨S32x2048x2, .f32⟩ : BufTy).Contents (Elt Ideal))

/-- The mask's reduction drops the last axis of `[32, 2048, 1]`. -/
theorem reduces_unit : S32x2048x1.Reduces [2] S32x2048 := by decide

/-- Position `k` of the flattened map is cell `(k / 64, k % 64)`. -/
theorem cell_apply (b : Fin 32) (c : Fin 256) (k : Nat) (hk : k < 4096) :
    val_main_v15 (F := Ideal) x0 (ix3 b c ⟨k, hk⟩)
      = x0 (ix4 b c ⟨k / 64, by omega⟩ ⟨k % 64, by omega⟩) := by
  rw [val_main_v15_apply]
  congr 1
  funext a; refine Fin.ext ?_
  have hb := b.isLt; have hc := c.isLt
  match a with
  | ⟨0, _⟩ => show ((b.val * 256 + c.val) * 4096 + k) / 1048576 = b.val; omega
  | ⟨1, _⟩ => show ((b.val * 256 + c.val) * 4096 + k) / 4096 % 256 = c.val; omega
  | ⟨2, _⟩ => show ((b.val * 256 + c.val) * 4096 + k) / 64 % 64 = k / 64; omega
  | ⟨3, _⟩ => show ((b.val * 256 + c.val) * 4096 + k) % 64 = k % 64; omega

/-- Gather 1 (lower row, lower column), transposed, at `(b, n, c)`: when the position word at `(b, n)` is a `k` below 4096,
    the wrap-around, the mask and the clamp are the identity and the value is cell `(k / 64, k % 64)` of channel
    `c` of batch `b`. -/
theorem take1_apply (b : Fin 32) (n : Fin 2048) (c : Fin 256) (k : Nat) (hk : k < 4096)
    (hW : val_main_v19 (F := Ideal) x1 (ix3 b (0 : Fin 1) n) = BitVec.ofNat 32 k) :
    val_main_v21 (F := Ideal) x0 x1 (ix3 b n c) = x0 (ix4 b c ⟨k / 64, by omega⟩ ⟨k % 64, by omega⟩) := by
  have hb := b.isLt; have hn := n.isLt
  -- the normalised position, laid out as start indices
  have h5 : val_main_call1_v5 (F := Ideal) x1 (ix3 b n (0 : Fin 1)) = BitVec.ofNat 32 k := by
    rw [val_main_call1_v5_apply]
    have hi : idx_main_call1_v5 (ix3 b n (0 : Fin 1)) = ix3 b (0 : Fin 1) n := by
      funext a; refine Fin.ext ?_
      match a with
      | ⟨0, _⟩ => show ((b.val * 2048 + n.val) * 1 + 0) / 2048 = b.val; omega
      | ⟨1, _⟩ => rfl
      | ⟨2, _⟩ => show ((b.val * 2048 + n.val) * 1 + 0) % 2048 = n.val; omega
    rw [hi, val_main_call1_v4_apply, val_main_call1_v1_apply, val_main_call1_v3_apply,
      val_main_call1_v0_apply, val_main_call1_c_apply, val_main_call1_v2_apply, val_main_call1_c_0_apply, hW]
    exact normalise_small k hk
  -- the in-bounds mask, reduced over its unit axis
  have h12 : val_main_call1_v12 (F := Ideal) x1 (ix2 b n) = 1#1 := by
    unfold val_main_call1_v12
    rw [reduce_unit_last IntOp.andi _ _ _ reduces_unit _ b n, val_main_call1_v11_apply,
      val_main_call1_v7_apply, val_main_call1_v10_apply, val_main_call1_v6_apply, val_main_call1_c_2_apply,
      val_main_call1_v9_apply, val_main_call1_v8_apply, val_main_call1_c_1_apply, val_main_call1_c_3_apply,
      h5, inBounds_small k hk]
    rfl
  -- the gather itself
  have h13 : val_main_call1_v13 (F := Ideal) x0 x1 (ix3 b c n)
      = x0 (ix4 b c ⟨k / 64, by omega⟩ ⟨k % 64, by omega⟩) := by
    unfold val_main_call1_v13
    show Host.gather (takeAlongDims 32 256 4096 2048 gather_S32x256x4096_S32x2048x1_S32x256x2048_1_2_0_0_2_2_12561_wf)
      (val_main_v15 (F := Ideal) x0) (val_main_call1_v5 (F := Ideal) x1) (ix3 b c n) = _
    rw [gather_takeAlong_apply (by decide : 0 < 4096)]
    have hc : (⟨min (val_main_call1_v5 (F := Ideal) x1 (ix3 b n (0 : Fin 1))).toInt.toNat (4096 - 1),
        by omega⟩ : Fin 4096) = ⟨k, hk⟩ := Fin.ext (by show min _ (4096 - 1) = k; rw [h5]; exact clamp_small k hk)
    rw [hc, cell_apply x0 b c k hk]
  rw [val_main_v21_apply]
  have hi21 : idx_main_v21 (ix3 b n c) = ix3 b c n := by
    funext a; refine Fin.ext ?_
    match a with
    | ⟨0, _⟩ => rfl
    | ⟨1, _⟩ => rfl
    | ⟨2, _⟩ => rfl
  rw [hi21, val_main_v20_apply, val_main_call1_v14_apply]
  have hi14 : idx_main_call1_v14 (ix3 b c n) = ix2 b n := by
    funext a; refine Fin.ext ?_
    match a with
    | ⟨0, _⟩ => rfl
    | ⟨1, _⟩ => rfl
  rw [hi14, h12, select_one, h13]

/-- Gather 2 (upper row, upper column), transposed, at `(b, n, c)`: when the position word at `(b, n)` is a `k` below 4096,
    the wrap-around, the mask and the clamp are the identity and the value is cell `(k / 64, k % 64)` of channel
    `c` of batch `b`. -/
theorem take2_apply (b : Fin 32) (n : Fin 2048) (c : Fin 256) (k : Nat) (hk : k < 4096)
    (hW : val_main_v25 (F := Ideal) x1 (ix3 b (0 : Fin 1) n) = BitVec.ofNat 32 k) :
    val_main_v27 (F := Ideal) x0 x1 (ix3 b n c) = x0 (ix4 b c ⟨k / 64, by omega⟩ ⟨k % 64, by omega⟩) := by
  have hb := b.isLt; have hn := n.isLt
  -- the normalised position, laid out as start indices
  have h5 : val_main_call2_v5 (F := Ideal) x1 (ix3 b n (0 : Fin 1)) = BitVec.ofNat 32 k := by
    rw [val_main_call2_v5_apply]
    have hi : idx_main_call2_v5 (ix3 b n (0 : Fin 1)) = ix3 b (0 : Fin 1) n := by
      funext a; refine Fin.ext ?_
      match a with
      | ⟨0, _⟩ => show ((b.val * 2048 + n.val) * 1 + 0) / 2048 = b.val; omega
      | ⟨1, _⟩ => rfl
      | ⟨2, _⟩ => show ((b.val * 2048 + n.val) * 1 + 0) % 2048 = n.val; omega
    rw [hi, val_main_call2_v4_apply, val_main_call2_v1_apply, val_main_call2_v3_apply,
      val_main_call2_v0_apply, val_main_call2_c_apply, val_main_call2_v2_apply, val_main_call2_c_0_apply, hW]
    exact normalise_small k hk
  -- the in-bounds mask, reduced over its unit axis
  have h12 : val_main_call2_v12 (F := Ideal) x1 (ix2 b n) = 1#1 := by
    unfold val_main_call2_v12
    rw [reduce_unit_last IntOp.andi _ _ _ reduces_unit _ b n, val_main_call2_v11_apply,
      val_main_call2_v7_apply, val_main_call2_v10_apply, val_main_call2_v6_apply, val_main_call2_c_2_apply,
      val_main_call2_v9_apply, val_main_call2_v8_apply, val_main_call2_c_1_apply, val_main_call2_c_3_apply,
      h5, inBounds_small k hk]
    rfl
  -- the gather itself
  have h13 : val_main_call2_v13 (F := Ideal) x0 x1 (ix3 b c n)
      = x0 (ix4 b c ⟨k / 64, by omega⟩ ⟨k % 64, by omega⟩) := by
    unfold val_main_call2_v13
    show Host.gather (takeAlongDims 32 256 4096 2048 gather_S32x256x4096_S32x2048x1_S32x256x2048_1_2_0_0_2_2_12561_wf)
      (val_main_v15 (F := Ideal) x0) (val_main_call2_v5 (F := Ideal) x1) (ix3 b c n) = _
    rw [gather_takeAlong_apply (by decide : 0 < 4096)]
    have hc : (⟨min (val_main_call2_v5 (F := Ideal) x1 (ix3 b n (0 : Fin 1))).toInt.toNat (4096 - 1),
        by omega⟩ : Fin 4096) = ⟨k, hk⟩ := Fin.ext (by show min _ (4096 - 1) = k; rw [h5]; exact clamp_small k hk)
    rw [hc, cell_apply x0 b c k hk]
  rw [val_main_v27_apply]
  have hi21 : idx_main_v27 (ix3 b n c) = ix3 b c n := by
    funext a; refine Fin.ext ?_
    match a with
    | ⟨0, _⟩ => rfl
    | ⟨1, _⟩ => rfl
    | ⟨2, _⟩ => rfl
  rw [hi21, val_main_v26_apply, val_main_call2_v14_apply]
  have hi14 : idx_main_call2_v14 (ix3 b c n) = ix2 b n := by
    funext a; refine Fin.ext ?_
    match a with
    | ⟨0, _⟩ => rfl
    | ⟨1, _⟩ => rfl
  rw [hi14, h12, select_one, h13]

/-- Gather 3 (upper row, lower column), transposed, at `(b, n, c)`: when the position word at `(b, n)` is a `k` below 4096,
    the wrap-around, the mask and the clamp are the identity and the value is cell `(k / 64, k % 64)` of channel
    `c` of batch `b`. -/
theorem take3_apply (b : Fin 32) (n : Fin 2048) (c : Fin 256) (k : Nat) (hk : k < 4096)
    (hW : val_main_v31 (F := Ideal) x1 (ix3 b (0 : Fin 1) n) = BitVec.ofNat 32 k) :
    val_main_v33 (F := Ideal) x0 x1 (ix3 b n c) = x0 (ix4 b c ⟨k / 64, by omega⟩ ⟨k % 64, by omega⟩) := by
  have hb := b.isLt; have hn := n.isLt
  -- the normalised position, laid out as start indices
  have h5 : val_main_call3_v5 (F := Ideal) x1 (ix3 b n (0 : Fin 1)) = BitVec.ofNat 32 k := by
    rw [val_main_call3_v5_apply]
    have hi : idx_main_call3_v5 (ix3 b n (0 : Fin 1)) = ix3 b (0 : Fin 1) n := by
      funext a; refine Fin.ext ?_
      match a with
      | ⟨0, _⟩ => show ((b.val * 2048 + n.val) * 1 + 0) / 2048 = b.val; omega
      | ⟨1, _⟩ => rfl
      | ⟨2, _⟩ => show ((b.val * 2048 + n.val) * 1 + 0) % 2048 = n.val; omega
    rw [hi, val_main_call3_v4_apply, val_main_call3_v1_apply, val_main_call3_v3_apply,
      val_main_call3_v0_apply, val_main_call3_c_apply, val_main_call3_v2_apply, val_main_call3_c_0_apply, hW]
    exact normalise_small k hk
  -- the in-bounds mask, reduced over its unit axis
  have h12 : val_main_call3_v12 (F := Ideal) x1 (ix2 b n) = 1#1 := by
    unfold val_main_call3_v12
    rw [reduce_unit_last IntOp.andi _ _ _ reduces_unit _ b n, val_main_call3_v11_apply,
      val_main_call3_v7_apply, val_main_call3_v10_apply, val_main_call3_v6_apply, val_main_call3_c_2_apply,
      val_main_call3_v9_apply, val_main_call3_v8_apply, val_main_call3_c_1_apply, val_main_call3_c_3_apply,
      h5, inBounds_small k hk]
    rfl
  -- the gather itself
  have h13 : val_main_call3_v13 (F := Ideal) x0 x1 (ix3 b c n)
      = x0 (ix4 b c ⟨k / 64, by omega⟩ ⟨k % 64, by omega⟩) := by
    unfold val_main_call3_v13
    show Host.gather (takeAlongDims 32 256 4096 2048 gather_S32x256x4096_S32x2048x1_S32x256x2048_1_2_0_0_2_2_12561_wf)
      (val_main_v15 (F := Ideal) x0) (val_main_call3_v5 (F := Ideal) x1) (ix3 b c n) = _
    rw [gather_takeAlong_apply (by decide : 0 < 4096)]
    have hc : (⟨min (val_main_call3_v5 (F := Ideal) x1 (ix3 b n (0 : Fin 1))).toInt.toNat (4096 - 1),
        by omega⟩ : Fin 4096) = ⟨k, hk⟩ := Fin.ext (by show min _ (4096 - 1) = k; rw [h5]; exact clamp_small k hk)
    rw [hc, cell_apply x0 b c k hk]
  rw [val_main_v33_apply]
  have hi21 : idx_main_v33 (ix3 b n c) = ix3 b c n := by
    funext a; refine Fin.ext ?_
    match a with
    | ⟨0, _⟩ => rfl
    | ⟨1, _⟩ => rfl
    | ⟨2, _⟩ => rfl
  rw [hi21, val_main_v32_apply, val_main_call3_v14_apply]
  have hi14 : idx_main_call3_v14 (ix3 b c n) = ix2 b n := by
    funext a; refine Fin.ext ?_
    match a with
    | ⟨0, _⟩ => rfl
    | ⟨1, _⟩ => rfl
  rw [hi14, h12, select_one, h13]

/-- Gather 4 (lower row, upper column), transposed, at `(b, n, c)`: when the position word at `(b, n)` is a `k` below 4096,
    the wrap-around, the mask and the clamp are the identity and the value is cell `(k / 64, k % 64)` of channel
    `c` of batch `b`. -/
theorem take4_apply (b : Fin 32) (n : Fin 2048) (c : Fin 256) (k : Nat) (hk : k < 4096)
    (hW : val_main_v37 (F := Ideal) x1 (ix3 b (0 : Fin 1) n) = BitVec.ofNat 32 k) :
    val_main_v39 (F := Ideal) x0 x1 (ix3 b n c) = x0 (ix4 b c ⟨k / 64, by omega⟩ ⟨k % 64, by omega⟩) := by
  have hb := b.isLt; have hn := n.isLt
  -- the normalised position, laid out as start indices
  have h5 : val_main_call4_v5 (F := Ideal) x1 (ix3 b n (0 : Fin 1)) = BitVec.ofNat 32 k := by
    rw [val_main_call4_v5_apply]
    have hi : idx_main_call4_v5 (ix3 b n (0 : Fin 1)) = ix3 b (0 : Fin 1) n := by
      funext a; refine Fin.ext ?_
      match a with
      | ⟨0, _⟩ => show ((b.val * 2048 + n.val) * 1 + 0) / 2048 = b.val; omega
      | ⟨1, _⟩ => rfl
      | ⟨2, _⟩ => show ((b.val * 2048 + n.val) * 1 + 0) % 2048 = n.val; omega
    rw [hi, val_main_call4_v4_apply, val_main_call4_v1_apply, val_main_call4_v3_apply,
      val_main_call4_v0_apply, val_main_call4_c_apply, val_main_call4_v2_apply, val_main_call4_c_0_apply, hW]
    exact normalise_small k hk
  -- the in-bounds mask, reduced over its unit axis
  have h12 : val_main_call4_v12 (F := Ideal) x1 (ix2 b n) = 1#1 := by
    unfold val_main_call4_v12
    rw [reduce_unit_last IntOp.andi _ _ _ reduces_unit _ b n, val_main_call4_v11_apply,
      val_main_call4_v7_apply, val_main_call4_v10_apply, val_main_call4_v6_apply, val_main_call4_c_2_apply,
      val_main_call4_v9_apply, val_main_call4_v8_apply, val_main_call4_c_1_apply, val_main_call4_c_3_apply,
      h5, inBounds_small k hk]
    rfl
  -- the gather itself
  have h13 : val_main_call4_v13 (F := Ideal) x0 x1 (ix3 b c n)
      = x0 (ix4 b c ⟨k / 64, by omega⟩ ⟨k % 64, by omega⟩) := by
    unfold val_main_call4_v13
    show Host.gather (takeAlongDims 32 256 4096 2048 gather_S32x256x4096_S32x2048x1_S32x256x2048_1_2_0_0_2_2_12561_wf)
      (val_main_v15 (F := Ideal) x0) (val_main_call4_v5 (F := Ideal) x1) (ix3 b c n) = _
    rw [gather_takeAlong_apply (by decide : 0 < 4096)]
    have hc : (⟨min (val_main_call4_v5 (F := Ideal) x1 (ix3 b n (0 : Fin 1))).toInt.toNat (4096 - 1),
        by omega⟩ : Fin 4096) = ⟨k, hk⟩ := Fin.ext (by show min _ (4096 - 1) = k; rw [h5]; exact clamp_small k hk)
    rw [hc, cell_apply x0 b c k hk]
  rw [val_main_v39_apply]
  have hi21 : idx_main_v39 (ix3 b n c) = ix3 b c n := by
    funext a; refine Fin.ext ?_
    match a with
    | ⟨0, _⟩ => rfl
    | ⟨1, _⟩ => rfl
    | ⟨2, _⟩ => rfl
  rw [hi21, val_main_v38_apply, val_main_call4_v14_apply]
  have hi14 : idx_main_call4_v14 (ix3 b c n) = ix2 b n := by
    funext a; refine Fin.ext ?_
    match a with
    | ⟨0, _⟩ => rfl
    | ⟨1, _⟩ => rfl
  rw [hi14, h12, select_one, h13]

end Take

/-! ## The reference is the specification -/

/-- A grid line below 64 as a word, times 64 plus another, is the position `64 y + x` of cell `(y, x)`, below 4096. -/
theorem cellWord_lt (y x : Fin 64) : y.val * 64 + x.val < 4096 := by
  have := y.isLt; have := x.isLt; omega

/-- THE REFERENCE READ AT AN INDEX: entry `(b, n, c)` is the bilinear sample of channel `c` of batch `b` at query `n`. -/
theorem ref_eq
    (h63 : Ideal.ofBits .f32 0x427C0000#32 = ((63 : ℝ) : EReal))
    (hrange : ∀ a : EReal, ∃ (l h : Fin 64) (d : ℝ),
      lo a = BitVec.ofNat 32 l.val ∧ hi a = BitVec.ofNat 32 h.val ∧ frac a = (d : EReal))
    (hline : ∀ l : Fin 64, line (BitVec.ofNat 32 l.val) = l)
    (x0 : (⟨S32x256x64x64, .f32⟩ : BufTy).Contents (Elt Ideal))
    (x1 : (⟨S32x2048x2, .f32⟩ : BufTy).Contents (Elt Ideal)) :
    val_main_v56 (F := Ideal) x0 x1 = Cert.Spec.G x0 x1 := by
  funext i
  obtain ⟨b, n, c, rfl⟩ : ∃ (b : Fin 32) (n : Fin 2048) (c : Fin 256), i = ix3 b n c := ⟨i 0, i 1, i 2, eq_ix3 i⟩
  -- the grid lines of the two coordinates of the query
  obtain ⟨xl, xh, xd, exl, exh, -⟩ := hrange (x1 (ix3 b n 0))
  obtain ⟨yl, yh, yd, eyl, eyh, -⟩ := hrange (x1 (ix3 b n 1))
  -- the four corners
  have e1 := take1_apply x0 x1 b n c (yl.val * 64 + xl.val) (cellWord_lt yl xl)
    (by rw [w1_apply h63 x1, eyl, exl, cellWord])
  have e2 := take2_apply x0 x1 b n c (yh.val * 64 + xh.val) (cellWord_lt yh xh)
    (by rw [w2_apply h63 x1, eyh, exh, cellWord])
  have e3 := take3_apply x0 x1 b n c (yh.val * 64 + xl.val) (cellWord_lt yh xl)
    (by rw [w3_apply h63 x1, eyh, exl, cellWord])
  have e4 := take4_apply x0 x1 b n c (yl.val * 64 + xh.val) (cellWord_lt yl xh)
    (by rw [w4_apply h63 x1, eyl, exh, cellWord])
  -- position 64 y + x is cell (y, x)
  have cellYX : ∀ (y x : Fin 64) (p1 : (y.val * 64 + x.val) / 64 < 64) (p2 : (y.val * 64 + x.val) % 64 < 64),
      x0 (ix4 b c ⟨(y.val * 64 + x.val) / 64, p1⟩ ⟨(y.val * 64 + x.val) % 64, p2⟩) = x0 (ix4 b c y x) := by
    intro y x p1 p2
    have hy := y.isLt; have hx := x.isLt
    have q1 : (⟨(y.val * 64 + x.val) / 64, p1⟩ : Fin 64) = y := Fin.ext (by show (y.val * 64 + x.val) / 64 = y.val; omega)
    have q2 : (⟨(y.val * 64 + x.val) % 64, p2⟩ : Fin 64) = x := Fin.ext (by show (y.val * 64 + x.val) % 64 = x.val; omega)
    rw [q1, q2]
  rw [cellYX] at e1 e2 e3 e4
  -- the interpolation
  rw [val_main_v56_apply, val_main_v55_apply, val_main_v52_apply, val_main_v51_apply, val_main_v50_apply,
    val_main_v47_apply, val_main_v46_apply, val_main_v45_apply, val_main_v42_apply,
    dx_apply h63 x1, dx'_apply h63 x1, dy_apply h63 x1, e1, e2, e3, e4]
  show _ = bil (fun h w => x0 (ix4 b c h w))
    (line (lo (x1 (ix3 b n 1)))) (line (hi (x1 (ix3 b n 1))))
    (line (lo (x1 (ix3 b n 0)))) (line (hi (x1 (ix3 b n 0))))
    (frac (x1 (ix3 b n 1))) (frac (x1 (ix3 b n 0)))
  rw [eyl, eyh, exl, exh, hline, hline, hline, hline]
  rfl

end Cert.RefValue

end
-- ==== Proof.lean ====
/-
  Bilinear sampling of a 64 x 64 feature map: a kernel that weighs ALL 4096 cells against a reference that gathers FOUR.

  Both programs scale a query's normalised coordinates to pixel coordinates `p = min 63 (max 0 (63 a))`, take the grid
  lines `⌊p⌋`, `⌈p⌉` (as 32-bit words) and the offset `d = p - ⌊p⌋`, with the same host operations. The reference
  gathers the four neighbouring cells of each channel (cell `64 y + x` of the flattened map, always within `[0, 4095]`,
  so the gather's bounds mask is all ones and its clamp the identity) and interpolates linearly in `x`, then in `y`.
  The kernel builds, per query, the row weights `Wy[h] = [h = ⌊py⌋](1 - dy) + [h = ⌈py⌉] dy` and the column weights
  `Wx[w]` likewise, and contracts their outer product with the batch's feature block:
  `out[n, c] = Σ_{h, w} Wy[h] Wx[w] f[c, h, w]`, the block copied once per batch into a buffer the four query blocks
  of the batch share. Over the reals the weighted sum has at most four nonzero terms and is the nested interpolation,
  also when a coordinate is integral (`⌊p⌋ = ⌈p⌉`, `d = 0`: the two weights of that line add up to one). On the
  extended reals the step from the sum to its four terms distributes a product over a sum, so it uses that every entry
  of the feature maps is a real number: the precondition. Changes of float format are the identity at the ideal values.

  The modules: `Spec` states the result as one function `G` of the two argument arrays; `Bilinear` proves the identity
  between the weighted sum and the interpolation and that `⌊p⌋, ⌈p⌉ ∈ {0, …, 63}`; `Finite` reads the precondition;
  `KernelPieces`, `KernelPoints`, `KernelArray` read the kernel's run point by point and tile the blocks into the result
  array; `KernelPayload` reads a block entry as the weighted sum; `KernelHost` reads the arrays the kernel's host
  operations hand to the region; `KernelValue` joins them into `G`; `RefValue` reads the reference's composed term as
  `G`. Here the five claims are assembled.
-/
import proofs.«139457_j5995774345370_2_alg».proof.Defs
import proofs.«139457_j5995774345370_2_alg».proof.Proof.Gen.Kernel
import proofs.«139457_j5995774345370_2_alg».proof.Proof.Gen.Kernel.Skeleton
import proofs.«139457_j5995774345370_2_alg».proof.Proof.Gen.Kernel.Launch
import proofs.«139457_j5995774345370_2_alg».proof.Proof.Gen.Kernel.Points
import proofs.«139457_j5995774345370_2_alg».proof.Proof.Gen.Kernel.Frame
import proofs.«139457_j5995774345370_2_alg».proof.Proof.Gen.KernelIdeal
import proofs.«139457_j5995774345370_2_alg».proof.Proof.Gen.KernelIdeal.Skeleton
import proofs.«139457_j5995774345370_2_alg».proof.Proof.Gen.KernelIdeal.Launch
import proofs.«139457_j5995774345370_2_alg».proof.Proof.Gen.KernelIdeal.Points
import proofs.«139457_j5995774345370_2_alg».proof.Proof.Gen.KernelIdeal.Frame
import proofs.«139457_j5995774345370_2_alg».proof.Proof.Gen.ReferenceIdeal
import proofs.«139457_j5995774345370_2_alg».proof.Proof.Gen.Pre_finite_inputs
import proofs.«139457_j5995774345370_2_alg».proof.Proof.Gen.KernelIdeal.Value
import proofs.«139457_j5995774345370_2_alg».proof.Proof.KernelValue
import proofs.«139457_j5995774345370_2_alg».proof.Proof.KernelHost
import proofs.«139457_j5995774345370_2_alg».proof.Proof.Finite
import proofs.«139457_j5995774345370_2_alg».proof.Proof.RefValue
import proofs.«139457_j5995774345370_2_alg».proof.Proof.RefRun
import proofs.«139457_j5995774345370_2_alg».proof.Proof.Bilinear
import Idealize.ShloMosaic.Adequacy
import Idealize.ShloMosaic.Init

noncomputable section

/-! ## The claims -/

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- At the ideal values both programs end with the specification's array of the arguments: the kernel's result array is
    the tiling of its blocks, each entry the weighted sum over all cells, which is the bilinear sample since the feature
    map is real-valued under the precondition; the reference's composed term is the bilinear sample entry by entry. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run Cert.KernelIdeal.defs _ _).mono (fun _ h c => ⟨(h c).1.trans ?_, (h c).2⟩)
      (Cert.KernelIdeal.Value.run_blocks (F := Ideal) m ρ)
    rw [Cert.KernelIdeal.Sampled.final_array m c]
    exact Cert.KernelIdeal.Sampled.kernelArray_eq_G m c
      (Cert.KernelIdeal.HostPrefix.host_ylt m c) (Cert.KernelIdeal.HostPrefix.host_yrb m c)
      (Cert.KernelIdeal.HostPrefix.host_xlt m c) (Cert.KernelIdeal.HostPrefix.host_xrb m c)
      (Cert.KernelIdeal.HostPrefix.host_dy m c) (Cert.KernelIdeal.HostPrefix.host_dx m c)
      (Cert.KernelIdeal.HostPrefix.host_feat m c)
      (Cert.Finite.arg0_real _ _ (hpre c))
  · refine (θ_run Cert.ReferenceIdeal.defs _ _).mono (fun _ h c => ⟨(h c).1.trans ?_, (h c).2⟩)
      (Cert.ReferenceIdeal.ValueP.run (F := Ideal) m' ρ')
    rw [Cert.ReferenceIdeal.ValueP.val_main_v56_eq, (hagree c).1, (hagree c).2]
    exact Cert.RefValue.ref_eq Cert.Bilinear.ofBits_63 Cert.Bilinear.lo_hi_frac Cert.Bilinear.line_ofNat _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
